-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x256 : Shape := ⟨3, ![32, 256, 256]⟩
abbrev S_ : Shape := ⟨0, ![]⟩

class Facts : Prop where
  bcast_S_S32x256x256 : S_.BroadcastsInDim S32x256x256 (![] : Fin 0 → Fin S32x256x256.rank)
  reducesTo_S32x256x256_S_d0_1_2 : S32x256x256.ReducesTo [0, 1, 2] S_
  h_S_ : 0 < S_.numel

variable [Facts]

def fn_part1 {F : FTy → Type} [FloatOps F] (main_v13 : IVec S_ 1) (main_v16 : IVec S32x256x256 1) : IVec S_ 1 :=
  let main_c_5 : IVec S_ 1 := constantI S_ 1 1#1
  let main_v17 : IVec S_ 1 := (fun x v => Host.reduce IntOp.andi x v reducesTo_S32x256x256_S_d0_1_2 h_S_) main_v16 main_c_5
  let main_v18 : IVec S_ 1 := andi main_v13 main_v17
  main_v18

def fn {F : FTy → Type} [FloatOps F] (main_arg0 : FVec F S32x256x256 .f32) (main_arg1 : FVec F S32x256x256 .f32) (main_arg2 : FVec F S32x256x256 .f32) (main_arg3 : FVec F S32x256x256 .f32) : IVec S_ 1 :=
  let main_v0 : FVec F S32x256x256 .f32 := Host.absf main_arg0
  let main_cst : FVec F S_ .f32 := constant S_ .f32 0x7F800000#32
  let main_v1 : FVec F S32x256x256 .f32 := broadcastInDim S32x256x256 ![] bcast_S_S32x256x256 main_cst
  let main_v2 : IVec S32x256x256 1 := cmpf .olt main_v0 main_v1
  let main_c : IVec S_ 1 := constantI S_ 1 1#1
  let main_v3 : IVec S_ 1 := (fun x v => Host.reduce IntOp.andi x v reducesTo_S32x256x256_S_d0_1_2 h_S_) main_v2 main_c
  let main_v4 : FVec F S32x256x256 .f32 := Host.absf main_arg1
  let main_cst_0 : FVec F S_ .f32 := constant S_ .f32 0x7F800000#32
  let main_v5 : FVec F S32x256x256 .f32 := broadcastInDim S32x256x256 ![] bcast_S_S32x256x256 main_cst_0
  let main_v6 : IVec S32x256x256 1 := cmpf .olt main_v4 main_v5
  let main_c_1 : IVec S_ 1 := constantI S_ 1 1#1
  let main_v7 : IVec S_ 1 := (fun x v => Host.reduce IntOp.andi x v reducesTo_S32x256x256_S_d0_1_2 h_S_) main_v6 main_c_1
  let main_v8 : IVec S_ 1 := andi main_v3 main_v7
  let main_v9 : FVec F S32x256x256 .f32 := Host.absf main_arg2
  let main_cst_2 : FVec F S_ .f32 := constant S_ .f32 0x7F800000#32
  let main_v10 : FVec F S32x256x256 .f32 := broadcastInDim S32x256x256 ![] bcast_S_S32x256x256 main_cst_2
  let main_v11 : IVec S32x256x256 1 := cmpf .olt main_v9 main_v10
  let main_c_3 : IVec S_ 1 := constantI S_ 1 1#1
  let main_v12 : IVec S_ 1 := (fun x v => Host.reduce IntOp.andi x v reducesTo_S32x256x256_S_d0_1_2 h_S_) main_v11 main_c_3
  let main_v13 : IVec S_ 1 := andi main_v8 main_v12
  let main_v14 : FVec F S32x256x256 .f32 := Host.absf main_arg3
  let main_cst_4 : FVec F S_ .f32 := constant S_ .f32 0x7F800000#32
  let main_v15 : FVec F S32x256x256 .f32 := broadcastInDim S32x256x256 ![] bcast_S_S32x256x256 main_cst_4
  let main_v16 : IVec S32x256x256 1 := cmpf .olt main_v14 main_v15
  fn_part1 (F := F) main_v13 main_v16
-- ==== Kernel.lean ====
abbrev S32x256x256 : Shape := ⟨3, ![32, 256, 256]⟩
abbrev S_ : Shape := ⟨0, ![]⟩
abbrev S32 : Shape := ⟨1, ![32]⟩
abbrev S32x256 : Shape := ⟨2, ![32, 256]⟩
abbrev S32x1x1 : Shape := ⟨3, ![32, 1, 1]⟩
abbrev S32x1x256 : Shape := ⟨3, ![32, 1, 256]⟩
abbrev S1x256x256 : Shape := ⟨3, ![1, 256, 256]⟩
abbrev S1x1x1 : Shape := ⟨3, ![1, 1, 1]⟩
abbrev S256x256 : Shape := ⟨2, ![256, 256]⟩
abbrev S1x1x256 : Shape := ⟨3, ![1, 1, 256]⟩
abbrev S256 : Shape := ⟨1, ![256]⟩
abbrev S1x256 : Shape := ⟨2, ![1, 256]⟩
abbrev S8192x256 : Shape := ⟨2, ![8192, 256]⟩

abbrev nBuf : Space → Nat
  | .hbm => 41
  | .vmem => 20
  | .smem => 0
  | _ => 0

abbrev bufTy : (tb : Table) → Fin (tcTables nBuf tb) → BufTy
  | .hbm, ⟨0, _⟩ => ⟨S32x256x256, .f32⟩
  | .hbm, ⟨1, _⟩ => ⟨S32x256x256, .f32⟩
  | .hbm, ⟨2, _⟩ => ⟨S32x256x256, .f32⟩
  | .hbm, ⟨3, _⟩ => ⟨S32x256x256, .f32⟩
  | .hbm, ⟨4, _⟩ => ⟨S32x256x256, .f32⟩
  | .hbm, ⟨5, _⟩ => ⟨S_, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32x256x256, .f32⟩
  | .hbm, ⟨12, _⟩ => ⟨S_, .f32⟩
  | .hbm, ⟨13, _⟩ => ⟨S32x256, .f32⟩
  | .hbm, ⟨14, _⟩ => ⟨S_, .f32⟩
  | .hbm, ⟨15, _⟩ => ⟨S32x256, .f32⟩
  | .hbm, ⟨16, _⟩ => ⟨S32x256, .f32⟩
  | .hbm, ⟨17, _⟩ => ⟨S32x256, .f32⟩
  | .hbm, ⟨18, _⟩ => ⟨S32x1x1, .f32⟩
  | .hbm, ⟨19, _⟩ => ⟨S32x1x256, .f32⟩
  | .hbm, ⟨20, _⟩ => ⟨S32x256x256, .f32⟩
  | .hbm, ⟨21, _⟩ => ⟨S32x256x256, .f32⟩
  | .hbm, ⟨22, _⟩ => ⟨S_, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S32x256x256, .f32⟩
  | .hbm, ⟨29, _⟩ => ⟨S_, .f32⟩
  | .hbm, ⟨30, _⟩ => ⟨S32x256, .f32⟩
  | .hbm, ⟨31, _⟩ => ⟨S_, .f32⟩
  | .hbm, ⟨32, _⟩ => ⟨S32x256, .f32⟩
  | .hbm, ⟨33, _⟩ => ⟨S32x256, .f32⟩
  | .hbm, ⟨34, _⟩ => ⟨S32x256, .f32⟩
  | .hbm, ⟨35, _⟩ => ⟨S32x1x1, .f32⟩
  | .hbm, ⟨36, _⟩ => ⟨S32x1x256, .f32⟩
  | .hbm, ⟨37, _⟩ => ⟨S32x256x256, .f32⟩
  | .hbm, ⟨38, _⟩ => ⟨S8192x256, .f32⟩
  | .hbm, ⟨39, _⟩ => ⟨S8192x256, .f32⟩
  | .hbm, ⟨40, _⟩ => ⟨S8192x256, .f32⟩
  | .local _ .vmem, ⟨0, _⟩ => ⟨S1x256x256, .f32⟩
  | .local _ .vmem, ⟨1, _⟩ => ⟨S1x256x256, .f32⟩
  | .local _ .vmem, ⟨2, _⟩ => ⟨S32x256x256, .f32⟩
  | .local _ .vmem, ⟨3, _⟩ => ⟨S1x1x1, .f32⟩
  | .local _ .vmem, ⟨4, _⟩ => ⟨S1x1x1, .f32⟩
  | .local _ .vmem, ⟨5, _⟩ => ⟨S32x1x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S32x256x256, .f32⟩
  | .local _ .vmem, ⟨13, _⟩ => ⟨S1x1x1, .f32⟩
  | .local _ .vmem, ⟨14, _⟩ => ⟨S1x1x1, .f32⟩
  | .local _ .vmem, ⟨15, _⟩ => ⟨S32x1x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | _, _ => ⟨S32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v13 : BitVec 32 := Scalar.addi c0_i32 c32_i32
  let c1_i32 : BitVec 32 := 1#32
  ⟨c0_i32, v13, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v25 : Index := Scalar.indexCast arg8
  let c0_23 : Index := 0#32
  let c0_24 : Index := 0#32
  ![v25.toNat, 0, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let v29 : Index := Scalar.indexCast arg8
  let c0_25 : Index := 0#32
  let c0_26 : Index := 0#32
  ![v29.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

@[reducible] def k1_t1_loop : Scf.Loop 32 :=
  let c0_i32 : BitVec 32 := 0#32
  let c32_i32 : BitVec 32 := 32#32
  let v13 : BitVec 32 := Scalar.addi c0_i32 c32_i32
  let c1_i32 : BitVec 32 := 1#32
  ⟨c0_i32, v13, c1_i32⟩
def k1_off1 (k1_t1 : Fin k1_t1_loop.trips) : Fin 3 → Nat :=
  let c0_i32 : BitVec 32 := 0#32
  let c1_i32 : BitVec 32 := 1#32
  let arg8 : BitVec 32 := Scf.iv c0_i32 c1_i32 k1_t1
  let v25 : Index := Scalar.indexCast arg8
  let c0_23 : Index := 0#32
  let c0_24 : Index := 0#32
  ![v25.toNat, 0, 0]
def k1_off2 (k1_t1 : Fin k1_t1_loop.trips) : Fin 3 → Nat :=
  let c0_i32 : BitVec 32 := 0#32
  let c1_i32 : BitVec 32 := 1#32
  let arg8 : BitVec 32 := Scf.iv c0_i32 c1_i32 k1_t1
  let v29 : Index := Scalar.indexCast arg8
  let c0_25 : Index := 0#32
  let c0_26 : Index := 0#32
  ![v29.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  reducesTo_S32x256x256_S32_d1_2 : S32x256x256.ReducesTo [1, 2] S32
  h_S_ : 0 < S_.numel
  bcast_S_S32 : S_.BroadcastsInDim S32 (![] : Fin 0 → Fin S32.rank)
  reducesTo_S32x256x256_S32x256_d1 : S32x256x256.ReducesTo [1] S32x256
  bcast_S_S32x256 : S_.BroadcastsInDim S32x256 (![] : Fin 0 → Fin S32x256.rank)
  shapeCasts_S32_S32x1x1 : S32.ShapeCasts S32x1x1
  shapeCasts_S32x256_S32x1x256 : S32x256.ShapeCasts S32x1x256
  inb_S1x256x256_S1x256x256_0_0_0 : ∀ a, (![0, 0, 0] : Fin 3 → Nat) a + S1x256x256.size a ≤ S1x256x256.size a
  h_S1x256x256 : 0 < S1x256x256.numel
  shapeCasts_S1x256x256_S1x256x256 : S1x256x256.ShapeCasts S1x256x256
  shapeCasts_S1x256x256_S256x256 : S1x256x256.ShapeCasts S256x256
  bitsLt_bf16_f32 : FTy.bits .bf16 < FTy.bits .f32
  inb_S1x1x1_S1x1x1_0_0_0 : ∀ a, (![0, 0, 0] : Fin 3 → Nat) a + S1x1x1.size a ≤ S1x1x1.size a
  h_S1x1x1 : 0 < S1x1x1.numel
  inpos_S1x1x1_p0_0_0 : ∀ a, (![0, 0, 0] : Fin 3 → Nat) a < S1x1x1.size a
  h_S1x1x256 : 0 < S1x1x256.numel
  shapeCasts_S1x1x256_S256 : S1x1x256.ShapeCasts S256
  transposes_S256x256_p1_0_S256x256 : S256x256.Transposes [1, 0] S256x256
  shapeCasts_S256_S1x256 : S256.ShapeCasts S1x256
  broadcasts_S1x256_S256x256 : S1x256.Broadcasts S256x256
  shapeCasts_S256x256_S1x256x256 : S256x256.ShapeCasts S1x256x256
  shapeCasts_S32x256x256_S8192x256 : S32x256x256.ShapeCasts S8192x256
  dot_S256x256_S256x256_S256x256_1_0_0_1_n_n_wf : DotDims.WF S256x256 S256x256 S256x256 [1] [0] [0] [1] [] []
  hrank0 : 0 < grid0.rank
  k0_t1_ok : k0_t1_loop.OK
  k0_off1_inb : ∀ k0_t1 : Fin k0_t1_loop.trips, ∀ a, (k0_off1 k0_t1) a + S1x256x256.size a ≤ S32x256x256.size a
  k0_off2_inb : ∀ k0_t1 : Fin k0_t1_loop.trips, ∀ a, (k0_off2 k0_t1) a + S1x1x256.size a ≤ S32x1x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S32x256x256.size a
  hwx0_0 : ∀ i : grid0.Coords, EltTy.bits .f32 = 32 ∨ (Rect.block (s := S32x256x256) S1x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256x256.size a ≤ S32x256x256.size a
  hwx0_1 : ∀ i : grid0.Coords, EltTy.bits .f32 = 32 ∨ (Rect.block (s := S32x256x256) S32x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S32x1x1.size a
  hwx0_2 : ∀ i : grid0.Coords, EltTy.bits .f32 = 32 ∨ (Rect.block (s := S32x1x1) S1x1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1x256.size a ≤ S32x1x256.size a
  hwx0_3 : ∀ i : grid0.Coords, EltTy.bits .f32 = 32 ∨ (Rect.block (s := S32x1x256) S32x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S32x256x256.size a
  hwx0_4 : ∀ i : grid0.Coords, EltTy.bits .f32 = 32 ∨ (Rect.block (s := S32x256x256) S1x256x256.size (cc0_transform_4 i) (hinb0_4 i)).WholeWords (EltTy.packing .f32)
  hrank1 : 0 < grid1.rank
  k1_t1_ok : k1_t1_loop.OK
  k1_off1_inb : ∀ k1_t1 : Fin k1_t1_loop.trips, ∀ a, (k1_off1 k1_t1) a + S1x256x256.size a ≤ S32x256x256.size a
  k1_off2_inb : ∀ k1_t1 : Fin k1_t1_loop.trips, ∀ a, (k1_off2 k1_t1) a + S1x1x256.size a ≤ S32x1x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S32x256x256.size a
  hwx1_0 : ∀ i : grid1.Coords, EltTy.bits .f32 = 32 ∨ (Rect.block (s := S32x256x256) S1x256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x256x256.size a ≤ S32x256x256.size a
  hwx1_1 : ∀ i : grid1.Coords, EltTy.bits .f32 = 32 ∨ (Rect.block (s := S32x256x256) S32x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S32x1x1.size a
  hwx1_2 : ∀ i : grid1.Coords, EltTy.bits .f32 = 32 ∨ (Rect.block (s := S32x1x1) S1x1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1x256.size a ≤ S32x1x256.size a
  hwx1_3 : ∀ i : grid1.Coords, EltTy.bits .f32 = 32 ∨ (Rect.block (s := S32x1x256) S32x1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x256.size a ≤ S32x256x256.size a
  hwx1_4 : ∀ i : grid1.Coords, EltTy.bits .f32 = 32 ∨ (Rect.block (s := S32x256x256) S1x256x256.size (cc1_transform_4 i) (hinb1_4 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg2) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S32x1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg3) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S32x256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S32x1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x256x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x256x256 : Shape := ⟨3, ![32, 256, 256]⟩
abbrev S32x256x32x256 : Shape := ⟨4, ![32, 256, 32, 256]⟩
abbrev S32x32x256x256 : Shape := ⟨4, ![32, 32, 256, 256]⟩
abbrev S_ : Shape := ⟨0, ![]⟩
abbrev S32 : Shape := ⟨1, ![32]⟩
abbrev S32x256 : Shape := ⟨2, ![32, 256]⟩
abbrev S32x1x1x1 : Shape := ⟨4, ![32, 1, 1, 1]⟩
abbrev S1x32x1x256 : Shape := ⟨4, ![1, 32, 1, 256]⟩
abbrev S32x32x1x256 : Shape := ⟨4, ![32, 32, 1, 256]⟩
abbrev S32x1 : Shape := ⟨2, ![32, 1]⟩
abbrev S32x2 : Shape := ⟨2, ![32, 2]⟩
abbrev S8192x256 : Shape := ⟨2, ![8192, 256]⟩

abbrev nBuf : Space → Nat
  | .hbm => 110
  | .vmem => 0
  | .smem => 0
  | _ => 0

abbrev bufTy : (tb : Table) → Fin (tcTables nBuf tb) → BufTy
  | .hbm, ⟨0, _⟩ => ⟨S32x256x256, .f32⟩
  | .hbm, ⟨1, _⟩ => ⟨S32x256x256, .f32⟩
  | .hbm, ⟨2, _⟩ => ⟨S32x256x256, .f32⟩
  | .hbm, ⟨3, _⟩ => ⟨S32x256x256, .f32⟩
  | .hbm, ⟨4, _⟩ => ⟨S32x256x32x256, .f32⟩
  | .hbm, ⟨5, _⟩ => ⟨S32x32x256x256, .f32⟩
  | .hbm, ⟨6, _⟩ => ⟨S32x256x256, .f32⟩
  | .hbm, ⟨7, _⟩ => ⟨S_, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32x256x256, .f32⟩
  | .hbm, ⟨14, _⟩ => ⟨S_, .f32⟩
  | .hbm, ⟨15, _⟩ => ⟨S32x256, .f32⟩
  | .hbm, ⟨16, _⟩ => ⟨S_, .f32⟩
  | .hbm, ⟨17, _⟩ => ⟨S32x256, .f32⟩
  | .hbm, ⟨18, _⟩ => ⟨S32x256, .f32⟩
  | .hbm, ⟨19, _⟩ => ⟨S32x256, .f32⟩
  | .hbm, ⟨20, _⟩ => ⟨S32x1x1x1, .f32⟩
  | .hbm, ⟨21, _⟩ => ⟨S1x32x1x256, .f32⟩
  | .hbm, ⟨22, _⟩ => ⟨S32x32x1x256, .f32⟩
  | .hbm, ⟨23, _⟩ => ⟨S32x32x1x256, .f32⟩
  | .hbm, ⟨24, _⟩ => ⟨S32x32x1x256, .f32⟩
  | .hbm, ⟨25, _⟩ => ⟨S32x32x256x256, .f32⟩
  | .hbm, ⟨26, _⟩ => ⟨S32x32x256x256, .f32⟩
  | .hbm, ⟨27, _⟩ => ⟨S32x32x256x256, .f32⟩
  | .hbm, ⟨28, _⟩ => ⟨S32, .i32⟩
  | .hbm, ⟨29, _⟩ => ⟨S_, .f32⟩
  | .hbm, ⟨30, _⟩ => ⟨S32x256x256, .f32⟩
  | .hbm, ⟨31, _⟩ => ⟨S_, .i32⟩
  | .hbm, ⟨32, _⟩ => ⟨S32, .i32⟩
  | .hbm, ⟨33, _⟩ => ⟨S32, .i1⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S32, .i32⟩
  | .hbm, ⟨38, _⟩ => ⟨S_, .i32⟩
  | .hbm, ⟨39, _⟩ => ⟨S32, .i32⟩
  | .hbm, ⟨40, _⟩ => ⟨S32, .i1⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S32, .i32⟩
  | .hbm, ⟨45, _⟩ => ⟨S32x1, .i32⟩
  | .hbm, ⟨46, _⟩ => ⟨S32x1, .i32⟩
  | .hbm, ⟨47, _⟩ => ⟨S32x2, .i32⟩
  | .hbm, ⟨48, _⟩ => ⟨S32x256x256, .f32⟩
  | .hbm, ⟨49, _⟩ => ⟨S32x256x256, .f32⟩
  | .hbm, ⟨50, _⟩ => ⟨S_, .f32⟩
  | .hbm, ⟨51, _⟩ => ⟨S32x256x256, .f32⟩
  | .hbm, ⟨52, _⟩ => ⟨S32x256x256, .f32⟩
  | .hbm, ⟨53, _⟩ => ⟨S32x256x256, .f32⟩
  | .hbm, ⟨54, _⟩ => ⟨S8192x256, .f32⟩
  | .hbm, ⟨55, _⟩ => ⟨S32x256x32x256, .f32⟩
  | .hbm, ⟨56, _⟩ => ⟨S32x32x256x256, .f32⟩
  | .hbm, ⟨57, _⟩ => ⟨S32x256x256, .f32⟩
  | .hbm, ⟨58, _⟩ => ⟨S_, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S32, .f32⟩
  | .hbm, ⟨64, _⟩ => ⟨S32x256x256, .f32⟩
  | .hbm, ⟨65, _⟩ => ⟨S_, .f32⟩
  | .hbm, ⟨66, _⟩ => ⟨S32x256, .f32⟩
  | .hbm, ⟨67, _⟩ => ⟨S_, .f32⟩
  | .hbm, ⟨68, _⟩ => ⟨S32x256, .f32⟩
  | .hbm, ⟨69, _⟩ => ⟨S32x256, .f32⟩
  | .hbm, ⟨70, _⟩ => ⟨S32x256, .f32⟩
  | .hbm, ⟨71, _⟩ => ⟨S32x1x1x1, .f32⟩
  | .hbm, ⟨72, _⟩ => ⟨S1x32x1x256, .f32⟩
  | .hbm, ⟨73, _⟩ => ⟨S32x32x1x256, .f32⟩
  | .hbm, ⟨74, _⟩ => ⟨S32x32x1x256, .f32⟩
  | .hbm, ⟨75, _⟩ => ⟨S32x32x1x256, .f32⟩
  | .hbm, ⟨76, _⟩ => ⟨S32x32x256x256, .f32⟩
  | .hbm, ⟨77, _⟩ => ⟨S32x32x256x256, .f32⟩
  | .hbm, ⟨78, _⟩ => ⟨S32x32x256x256, .f32⟩
  | .hbm, ⟨79, _⟩ => ⟨S32, .i32⟩
  | .hbm, ⟨80, _⟩ => ⟨S_, .f32⟩
  | .hbm, ⟨81, _⟩ => ⟨S32x256x256, .f32⟩
  | .hbm, ⟨82, _⟩ => ⟨S_, .i32⟩
  | .hbm, ⟨83, _⟩ => ⟨S32, .i32⟩
  | .hbm, ⟨84, _⟩ => ⟨S32, .i1⟩
  | .hbm, ⟨85, _⟩ => ⟨S_, .i32⟩
  | .hbm, ⟨86, _⟩ => ⟨S32, .i32⟩
  | .hbm, ⟨87, _⟩ => ⟨S32, .i32⟩
  | .hbm, ⟨88, _⟩ => ⟨S32, .i32⟩
  | .hbm, ⟨89, _⟩ => ⟨S_, .i32⟩
  | .hbm, ⟨90, _⟩ => ⟨S32, .i32⟩
  | .hbm, ⟨91, _⟩ => ⟨S32, .i1⟩
  | .hbm, ⟨92, _⟩ => ⟨S_, .i32⟩
  | .hbm, ⟨93, _⟩ => ⟨S32, .i32⟩
  | .hbm, ⟨94, _⟩ => ⟨S32, .i32⟩
  | .hbm, ⟨95, _⟩ => ⟨S32, .i32⟩
  | .hbm, ⟨96, _⟩ => ⟨S32x1, .i32⟩
  | .hbm, ⟨97, _⟩ => ⟨S32x1, .i32⟩
  | .hbm, ⟨98, _⟩ => ⟨S32x2, .i32⟩
  | .hbm, ⟨99, _⟩ => ⟨S32x256x256, .f32⟩
  | .hbm, ⟨100, _⟩ => ⟨S32x256x256, .f32⟩
  | .hbm, ⟨101, _⟩ => ⟨S_, .f32⟩
  | .hbm, ⟨102, _⟩ => ⟨S32x256x256, .f32⟩
  | .hbm, ⟨103, _⟩ => ⟨S32x256x256, .f32⟩
  | .hbm, ⟨104, _⟩ => ⟨S32x256x256, .f32⟩
  | .hbm, ⟨105, _⟩ => ⟨S8192x256, .f32⟩
  | .hbm, ⟨106, _⟩ => ⟨S8192x256, .f32⟩
  | .hbm, ⟨107, _⟩ => ⟨S_, .f32⟩
  | .hbm, ⟨108, _⟩ => ⟨S8192x256, .f32⟩
  | .hbm, ⟨109, _⟩ => ⟨S8192x256, .f32⟩
  | _, _ => ⟨S32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_c_13 : Ref sig .tc := ⟨.hbm, 82, rfl⟩
abbrev main_v63 : Ref sig .tc := ⟨.hbm, 83, rfl⟩
abbrev main_v64 : Ref sig .tc := ⟨.hbm, 84, rfl⟩
abbrev main_c_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_15 : Ref sig .tc := ⟨.hbm, 89, rfl⟩
abbrev main_v68 : Ref sig .tc := ⟨.hbm, 90, rfl⟩
abbrev main_v69 : Ref sig .tc := ⟨.hbm, 91, rfl⟩
abbrev main_c_16 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_17 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_18 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]

class Facts₀ : Prop where
  transposes_S32x256x32x256_S32x32x256x256_2_0_3_1 : S32x256x32x256.Transposes [2, 0, 3, 1] S32x32x256x256
  reducesTo_S32x256x256_S32_d1_2 : S32x256x256.ReducesTo [1, 2] S32
  h_S_ : 0 < S_.numel
  bcast_S_S32 : S_.BroadcastsInDim S32 (![] : Fin 0 → Fin S32.rank)
  reducesTo_S32x256x256_S32x256_d1 : S32x256x256.ReducesTo [1] S32x256
  bcast_S_S32x256 : S_.BroadcastsInDim S32x256 (![] : Fin 0 → Fin S32x256.rank)
  bcast_S32_S32x1x1x1_0 : S32.BroadcastsInDim S32x1x1x1 (![0] : Fin 1 → Fin S32x1x1x1.rank)
  bcast_S32x256_S1x32x1x256_1_3 : S32x256.BroadcastsInDim S1x32x1x256 (![1, 3] : Fin 2 → Fin S1x32x1x256.rank)
  bcast_S32x1x1x1_S32x32x1x256_0_1_2_3 : S32x1x1x1.BroadcastsInDim S32x32x1x256 (![0, 1, 2, 3] : Fin 4 → Fin S32x32x1x256.rank)
  bcast_S1x32x1x256_S32x32x1x256_0_1_2_3 : S1x32x1x256.BroadcastsInDim S32x32x1x256 (![0, 1, 2, 3] : Fin 4 → Fin S32x32x1x256.rank)
  bcast_S32x32x1x256_S32x32x256x256_0_1_2_3 : S32x32x1x256.BroadcastsInDim S32x32x256x256 (![0, 1, 2, 3] : Fin 4 → Fin S32x32x256x256.rank)
  reducesTo_S32x32x256x256_S32x256x256_d1 : S32x32x256x256.ReducesTo [1] S32x256x256
  bcast_S32_S32x1_0 : S32.BroadcastsInDim S32x1 (![0] : Fin 1 → Fin S32x1.rank)
  concatenates_S32x1_S32x1_S32x2_d1 : Shape.Concatenates [S32x1, S32x1] S32x2 1
  bcast_S_S32x256x256 : S_.BroadcastsInDim S32x256x256 (![] : Fin 0 → Fin S32x256x256.rank)
  shapeCasts_S32x256x256_S8192x256 : S32x256x256.ShapeCasts S8192x256
  bcast_S_S8192x256 : S_.BroadcastsInDim S8192x256 (![] : Fin 0 → Fin S8192x256.rank)
  dot_S32x256x256_S32x256x256_S32x256x32x256_2_2_01_01_n_n_wf : DotDims.WF S32x256x256 S32x256x256 S32x256x32x256 [2] [2] [0, 1] [0, 1] [] []
  gather_S32x32x256x256_S32x2_S32x256x256_12_01_n_n_01_1_11256256_wf : GatherDims.WF S32x32x256x256 S32x2 S32x256x256 [1, 2] [0, 1] [] [0, 1] [] 1 ![1, 1, 256, 256]

variable [Facts₀]

def dot_S32x256x256_S32x256x256_S32x256x32x256_2_2_01_01_n_n : DotDims S32x256x256 S32x256x256 S32x256x32x256 where
  lhsContracting := [2]
  rhsContracting := [2]
  lhsNonContracting := [0, 1]
  rhsNonContracting := [0, 1]
  lhsBatch := []
  rhsBatch := []
  wf := dot_S32x256x256_S32x256x256_S32x256x32x256_2_2_01_01_n_n_wf
def gather_S32x32x256x256_S32x2_S32x256x256_12_01_n_n_01_1_11256256 : GatherDims S32x32x256x256 S32x2 S32x256x256 where
  offsetDims := [1, 2]
  collapsedSliceDims := [0, 1]
  operandBatchingDims := []
  startIndicesBatchingDims := []
  startIndexMap := [0, 1]
  indexVectorDim := 1
  sliceSizes := ![1, 1, 256, 256]
  wf := gather_S32x32x256x256_S32x2_S32x256x256_12_01_n_n_01_1_11256256_wf

class Facts : Prop extends Facts₀ where

variable [Facts]
-- ==== Proof.Body0.lean ====
/-
  Region 0's kernel body, read as values.

  At a grid point the body zero-fills two scratch blocks (a running sum and the anchor's own term), then runs 32
  trips; trip k loads row-block k of the resident array and row k of the resident column norms, forms the block of
  exponentials e_k from them and from the point's own block and norm, adds e_k into the first scratch block, and
  adds e_k into the second only when k is the grid point's own index. After the loop it stores
  log1p(first − second)·(−1) into the output block.

  So the scratch blocks after k trips follow a recursion on k whose step is the two payloads of one trip, and the
  output block is the last payload applied to the scratch blocks after all trips. Each store covers its whole
  block, so what a block holds after a store is that store's payload, whatever it held before.
-/
import proofs.«113956_j5497558139284_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body0

open Cert.KernelIdeal Cert.KernelIdeal.Gen

variable {F : FTy → Type} [FloatOps F]

theorem hz3 : (![0, 0, 0] : Fin 3 → Nat) = fun _ => 0 := funext fun a => by fin_cases a <;> rfl

/-- A store through the whole block, made last, leaves its payload: whatever was stored before. -/
theorem read_store_whole {sig : RefSig} {κ : Kind} {sp : Space} {S : Shape} {e : EltTy} {Val : EltTy → Type}
    [∀ e, Nonempty (Val e)] (v : View sig κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

/-- The two scratch blocks after k trips, from the point's block v8 and norm v11 and the two resident arrays. -/
def scratchAfter (i : grid0.Coords) (v8 : Vec F S1x256x256 .f32) (v11 : Vec F S1x1x1 .f32)
    (Y2 : Vec F S32x256x256 .f32) (Y4 : Vec F S32x1x256 .f32) : ℕ → Vec F S1x256x256 .f32 × Vec F S1x256x256 .f32
  | 0 => (k0_pay1, k0_pay2)
  | k + 1 =>
    if h : k < k0_t1_loop.trips then
      (k0_pay4 v8 v11 (View.ld Y2 (Rect.unit (k0_off1 ⟨k, h⟩) S1x256x256.size (k0_off1_inb ⟨k, h⟩)))
          (View.ld Y4 (Rect.unit (k0_off2 ⟨k, h⟩) S1x1x256.size (k0_off2_inb ⟨k, h⟩))) (scratchAfter i v8 v11 Y2 Y4 k).1,
        k0_pay5 i v8 v11 ⟨k, h⟩ (View.ld Y2 (Rect.unit (k0_off1 ⟨k, h⟩) S1x256x256.size (k0_off1_inb ⟨k, h⟩)))
          (View.ld Y4 (Rect.unit (k0_off2 ⟨k, h⟩) S1x1x256.size (k0_off2_inb ⟨k, h⟩))) (scratchAfter i v8 v11 Y2 Y4 k).2)
    else scratchAfter i v8 v11 Y2 Y4 k

section Pieces

variable (c : Dev nD) (i : grid0.Coords) (arg1 : Memref sig .tc .vmem S1x256x256 .f32) (harg1 : arg1.IsWhole) (arg2 : Memref sig .tc .vmem S32x256x256 .f32) (harg2 : arg2.IsWhole) (arg3 : Memref sig .tc .vmem S1x1x1 .f32) (harg3 : arg3.IsWhole) (arg4 : Memref sig .tc .vmem S32x1x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .f32) (harg7 : arg7.IsWhole)

/-- One trip's stores: one whole-block store into each scratch block, of the trip's two payloads. -/
theorem trip_pieces (v8 : Vec F S1x256x256 .f32) (v11 : Vec F S1x1x1 .f32) (X2 : BufTy.Contents (Elt F) arg2.view.ty)
    (X4 : BufTy.Contents (Elt F) arg4.view.ty) (k : Fin k0_t1_loop.trips) (f6 : BufTy.Contents (Elt F) arg6.view.ty)
    (f7 : BufTy.Contents (Elt F) arg7.view.ty) :
    tripL_k0_t1 (F := F) Variants.none c none i arg1 harg1 arg2 harg2 arg3 harg3 arg4 harg4 arg5 harg5 arg6 harg6 arg7 harg7 v8 v11 X2 X4 k f6 f7
      = ([⟨(Rect.unit (s := S1x256x256) ![0, 0, 0] S1x256x256.size inb_S1x256x256_S1x256x256_0_0_0),
            k0_pay4 v8 v11 (View.ld (arg2.view.read (Elt F) X2) (Rect.unit (k0_off1 k) S1x256x256.size (k0_off1_inb k)))
              (View.ld (arg4.view.read (Elt F) X4) (Rect.unit (k0_off2 k) S1x1x256.size (k0_off2_inb k)))
              (View.ld (arg6.view.read (Elt F) f6) (Rect.unit (s := S1x256x256) ![0, 0, 0] S1x256x256.size inb_S1x256x256_S1x256x256_0_0_0))⟩],
         [⟨(Rect.unit (s := S1x256x256) ![0, 0, 0] S1x256x256.size inb_S1x256x256_S1x256x256_0_0_0),
            k0_pay5 i v8 v11 k (View.ld (arg2.view.read (Elt F) X2) (Rect.unit (k0_off1 k) S1x256x256.size (k0_off1_inb k)))
              (View.ld (arg4.view.read (Elt F) X4) (Rect.unit (k0_off2 k) S1x1x256.size (k0_off2_inb k)))
              (View.ld (arg7.view.read (Elt F) f7) (Rect.unit (s := S1x256x256) ![0, 0, 0] S1x256x256.size inb_S1x256x256_S1x256x256_0_0_0))⟩]) := by
  unfold tripL_k0_t1
  unfold trip_k0_t1
  rfl

end Pieces

section Run

variable (c : Dev nD) (i : grid0.Coords) (arg1 : Memref sig .tc .vmem S1x256x256 .f32) (harg1 : arg1.IsWhole) (arg2 : Memref sig .tc .vmem S32x256x256 .f32) (harg2 : arg2.IsWhole) (arg3 : Memref sig .tc .vmem S1x1x1 .f32) (harg3 : arg3.IsWhole) (arg4 : Memref sig .tc .vmem S32x1x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .f32) (harg7 : arg7.IsWhole)

/-- After the trips before k, started from scratch blocks that read as the two zero-fills, the scratch blocks read as
    the recursion at k: by induction on k, one trip's two whole-block stores per step. -/
theorem scratch_eq (v8 : Vec F S1x256x256 .f32) (v11 : Vec F S1x1x1 .f32) (X2 : BufTy.Contents (Elt F) arg2.view.ty)
    (X4 : BufTy.Contents (Elt F) arg4.view.ty) (G6 : BufTy.Contents (Elt F) arg6.view.ty)
    (G7 : BufTy.Contents (Elt F) arg7.view.ty) (h6 : arg6.view.read (Elt F) G6 = k0_pay1)
    (h7 : arg7.view.read (Elt F) G7 = k0_pay2) (k : ℕ) (hk : k ≤ k0_t1_loop.trips) :
    arg6.view.read (Elt F) (arg6.view.writes (Elt F) G6
        (pb_k0_t1 (F := F) Variants.none c none i arg1 harg1 arg2 harg2 arg3 harg3 arg4 harg4 arg5 harg5 arg6 harg6 arg7 harg7 v8 v11 X2 X4 G6 G7 k).1)
      = (scratchAfter i v8 v11 (arg2.view.read (Elt F) X2) (arg4.view.read (Elt F) X4) k).1
    ∧ arg7.view.read (Elt F) (arg7.view.writes (Elt F) G7
        (pb_k0_t1 (F := F) Variants.none c none i arg1 harg1 arg2 harg2 arg3 harg3 arg4 harg4 arg5 harg5 arg6 harg6 arg7 harg7 v8 v11 X2 X4 G6 G7 k).2)
      = (scratchAfter i v8 v11 (arg2.view.read (Elt F) X2) (arg4.view.read (Elt F) X4) k).2 := by
  induction k with
  | zero => exact ⟨h6, h7⟩
  | succ k ih =>
    have hk' : k < k0_t1_loop.trips := hk
    obtain ⟨ih6, ih7⟩ := ih (Nat.le_of_lt hk')
    have hs := pb_k0_t1_succ (F := F) Variants.none c none i arg1 harg1 arg2 harg2 arg3 harg3 arg4 harg4 arg5 harg5 arg6 harg6 arg7 harg7 v8 v11 X2 X4 G6 G7 ⟨k, hk'⟩
    rw [trip_pieces] at hs
    have hs' : pb_k0_t1 (F := F) Variants.none c none i arg1 harg1 arg2 harg2 arg3 harg3 arg4 harg4 arg5 harg5 arg6 harg6 arg7 harg7 v8 v11 X2 X4 G6 G7 (k + 1) = _ := hs
    rw [hs']
    refine ⟨?_, ?_⟩
    · show arg6.view.read (Elt F) (arg6.view.writes (Elt F) G6 (_ :: _)) = _
      rw [read_store_whole _ _ hz3, View.ld_unit_zero (S := S1x256x256) hz3, ih6, scratchAfter, dif_pos hk']
    · show arg7.view.read (Elt F) (arg7.view.writes (Elt F) G7 (_ :: _)) = _
      rw [read_store_whole _ _ hz3, View.ld_unit_zero (S := S1x256x256) hz3, ih7, scratchAfter, dif_pos hk']

/-- What the body leaves in the output block: the last payload of the scratch blocks after all the trips. -/
theorem out_eq (x0 : Vec F S1x256x256 .f32) (x1 : Vec F S32x256x256 .f32) (x2 : Vec F S1x1x1 .f32)
    (x3 : Vec F S32x1x256 .f32) :
    out0_A_4 (F := F) c i arg1 harg1 arg2 harg2 arg3 harg3 arg4 harg4 arg5 harg5 arg6 harg6 arg7 harg7 x0 x1 x2 x3
      = k0_pay6 (scratchAfter i x0 x2 x1 x3 k0_t1_loop.trips).1 (scratchAfter i x0 x2 x1 x3 k0_t1_loop.trips).2 := by
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  sl_unfold_words
  rw [View.canon_unit_zero hz3]
  simp only [View.readAt_eq_ld, View.ld_unit_zero (S := S1x256x256) hz3, View.ld_unit_zero (S := S1x1x1) hz3,
    View.writes_append, harg1.read_unread, harg3.read_unread]
  obtain ⟨e6, e7⟩ := scratch_eq (F := F) c i arg1 harg1 arg2 harg2 arg3 harg3 arg4 harg4 arg5 harg5 arg6 harg6 arg7 harg7 x0 x2 (harg2.unread x1) (harg4.unread x3)
    (arg6.view.writes (Elt F) arg6.view.junk [⟨(Rect.unit (s := S1x256x256) ![0, 0, 0] S1x256x256.size inb_S1x256x256_S1x256x256_0_0_0), k0_pay1⟩])
    (arg7.view.writes (Elt F) arg7.view.junk [⟨(Rect.unit (s := S1x256x256) ![0, 0, 0] S1x256x256.size inb_S1x256x256_S1x256x256_0_0_0), k0_pay2⟩])
    (read_store_whole _ _ hz3 _ _ []) (read_store_whole _ _ hz3 _ _ []) k0_t1_loop.trips le_rfl
  rw [harg2.read_unread, harg4.read_unread] at e6 e7
  exact congrArg₂ k0_pay6 e6 e7

end Run

end Cert.KernelIdeal.Body0

end
-- ==== Proof.Spec.lean ====
/-
  The function both programs compute, stated once.

  Arrays: V, A of shape [32, 256, 256] (an anchor axis i or j, a row axis t or s, a feature axis d); a norm per
  anchor, vn of shape [32]; a norm per anchor and column, an of shape [32, 256].

  For an ordered pair (V, A) with norms (vn, an), anchors i, j and positions t, s:

      E i j t s = exp ( (Σ_d V(i,t,d) · A(j,s,d)) / (vn(i) · an(j,s)) )
      D i t s   = log ( 1 + ( Σ_j E i j t s  −  E i i t s ) )

  and the result, of shape [8192, 256], at row r = 256·i + t and column s is

      (−1) · ( D(V:=x2, A:=x3) i t s + D(V:=x3, A:=x2) i t s ).

  Every operation is the extended-real one; the two literals are kept as their words.
-/
import Idealize.ShloMosaic.PureOps.Ideal
import Idealize.ShloMosaic.Lib.ValueIdx

noncomputable section

namespace Cert.Contrast

open Idealize.ShloMosaic Idealize.ShloMosaic.ValueIdx
open scoped BigOperators

/-- [32, 256, 256]: anchor, row, feature. -/
abbrev SA : Shape := ⟨3, ![32, 256, 256]⟩
/-- [32]: one norm per anchor. -/
abbrev SN : Shape := ⟨1, ![32]⟩
/-- [32, 256]: one norm per anchor and column. -/
abbrev SC : Shape := ⟨2, ![32, 256]⟩
/-- [8192, 256]: the result, row 256·i + t, column s. -/
abbrev SO : Shape := ⟨2, ![8192, 256]⟩

/-- The word of −1. -/
abbrev negOne : EReal := Ideal.ofBits .f32 0xBF800000#32

/-- The inner product of row t of V's anchor i with row s of A's anchor j. -/
def dotRow (V A : SA.Idx → EReal) (i j : Fin 32) (t s : Fin 256) : EReal :=
  ∑ d : Fin 256, V (ix3 i t d) * A (ix3 j s d)

/-- exp of the normalised inner product. -/
def E (V A : SA.Idx → EReal) (vn : SN.Idx → EReal) (an : SC.Idx → EReal) (i j : Fin 32) (t s : Fin 256) : EReal :=
  Ideal.exp (Ideal.div (dotRow V A i j t s) (vn (ix1 i) * an (ix2 j s)))

/-- log (1 + the sum over the other anchors), written as the whole sum minus the anchor's own term. -/
def D (V A : SA.Idx → EReal) (vn : SN.Idx → EReal) (an : SC.Idx → EReal) (i : Fin 32) (t s : Fin 256) : EReal :=
  Ideal.log1p ((∑ j : Fin 32, E V A vn an i j t s) - E V A vn an i i t s)

/-- The anchor of a result row. -/
def rowAnchor (r : Fin 8192) : Fin 32 := ⟨r.val / 256, by have := r.isLt; omega⟩
/-- The position of a result row inside its anchor. -/
def rowPos (r : Fin 8192) : Fin 256 := ⟨r.val % 256, Nat.mod_lt _ (by decide)⟩

/-- The result at row r, column s. -/
def G (x2 x3 : SA.Idx → EReal) (vn2 vn3 : SN.Idx → EReal) (an2 an3 : SC.Idx → EReal) : SO.Idx → EReal :=
  fun q =>
    negOne * (D x2 x3 vn2 an3 (rowAnchor (q 0)) (rowPos (q 0)) (q 1)
              + D x3 x2 vn3 an2 (rowAnchor (q 0)) (rowPos (q 0)) (q 1))

/-- The same with each direction scaled before the two are added: what a program that scales first computes. -/
def Gscaled (x2 x3 : SA.Idx → EReal) (vn2 vn3 : SN.Idx → EReal) (an2 an3 : SC.Idx → EReal) : SO.Idx → EReal :=
  fun q =>
    D x2 x3 vn2 an3 (rowAnchor (q 0)) (rowPos (q 0)) (q 1) * negOne
      + D x3 x2 vn3 an2 (rowAnchor (q 0)) (rowPos (q 0)) (q 1) * negOne

end Cert.Contrast

end
-- ==== Proof.LibDotRead.lean ====
/-
  A matrix product into a zero accumulator, read at an entry.

  A contraction with no batch axis, one free axis on each side and one contracted axis is, at result entry (r, c),
  the sum over the contracted coordinate j of the two operands' entries. Two layouts occur:

    plain           [m, k] · [k, n]          entry (r, c) = Σ_j  lhs (r, j) * rhs (j, c)
    transposed rhs  [m, k] · [n, k]ᵀ         entry (r, c) = Σ_j  lhs (r, j) * rhs (c, j)

  The index maps of a contraction are stated for any dimension numbers; the facts needed are that on the one
  contracted axis an operand index is the contraction coordinate, and on the one free axis it is the result's row
  (left operand) or column (right operand) coordinate.
-/
import Idealize.ShloMosaic.PureOps.Ideal.Laws
import Idealize.ShloMosaic.Lib.ValueIdx

noncomputable section

namespace Cert.Pay

open Idealize.ShloMosaic Idealize.ShloMosaic.ValueIdx

section Free

variable {sl sr so : Shape} (d : DotDims sl sr so)

/-- No batch axis and one free left axis: on it, the left operand's index is the result index's first coordinate. -/
theorem lhsIdx_val_of_free {a : Fin sl.rank} (hb : d.lhsBatch = []) (hn : d.lhsNonContracting = [a]) (j : so.Idx)
    (k : d.contr.Idx) :
    (d.lhsIdx j k a).val = (j ⟨0, by rw [d.rank_out, hb, hn]; simp⟩).val := by
  have hnb : a ∉ d.lhsBatch := by rw [hb]; simp
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- No batch axis, one free axis on each side: on the right operand's free axis, its index is the result index's
    second coordinate. -/
theorem rhsIdx_val_of_free {a' : Fin sl.rank} {a : Fin sr.rank} (hlb : d.lhsBatch = []) (hrb : d.rhsBatch = [])
    (hln : d.lhsNonContracting = [a']) (hrn : d.rhsNonContracting = [a]) (j : so.Idx) (k : d.contr.Idx) :
    (d.rhsIdx j k a).val = (j ⟨1, by rw [d.rank_out, hlb, hln, hrn]; simp⟩).val := by
  have hnb : a ∉ d.rhsBatch := by rw [hrb]; simp
  have hmem : a ∈ d.rhsNonContracting := by rw [hrn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

end Free

/-- [m, k] · [k, n] into zero, at (r, c): Σ_j lhs (r, j) * rhs (j, c). -/
theorem matmul_plain_apply {m k n : ℕ} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![m, k]⟩ .f32) (rhs : FVec Ideal ⟨2, ![k, n]⟩ .f32)
    (r : Fin m) (c : Fin n) :
    FloatOps.matmul d prec lhs rhs (constant (F := Ideal) ⟨2, ![m, n]⟩ .f32 0x00000000#32) (ix2 r c)
      = ∑ j : Fin k, lhs (ix2 r j) * rhs (ix2 j c) := by
  have hr : d.contr.rank = 1 := by rw [d.rank_contr, hlc]; rfl
  have hs : d.contr.size ⟨0, by omega⟩ = k :=
    (d.size_contr 0 (by rw [hlc]; exact Nat.one_pos)).trans (by simp [hlc])
  rw [Ideal.matmul_constant_zero_apply, ← Equiv.sum_comp (contrEquiv1 d k hr hs).symm]
  refine Finset.sum_congr rfl fun j _ => ?_
  have e1 : d.lhsIdx (ix2 r c) ((contrEquiv1 d k hr hs).symm j) = ix2 r j := funext fun a => Fin.ext (by
    match a with
    | ⟨0, _⟩ => exact lhsIdx_val_of_free d hlb hln _ _
    | ⟨1, _⟩ => exact (d.lhsIdx_val_of_single hlc _ _).trans (contrEquiv1_symm_val d k hr hs j))
  have e2 : d.rhsIdx (ix2 r c) ((contrEquiv1 d k hr hs).symm j) = ix2 j c := funext fun a => Fin.ext (by
    match a with
    | ⟨0, _⟩ => exact (d.rhsIdx_val_of_single hrc _ _).trans (contrEquiv1_symm_val d k hr hs j)
    | ⟨1, _⟩ => exact rhsIdx_val_of_free d hlb hrb hln hrn _ _)
  rw [e1, e2]

/-- [m, k] · [n, k]ᵀ into zero, at (r, c): Σ_j lhs (r, j) * rhs (c, j). -/
theorem matmul_transposedRhs_apply {m k n : ℕ} (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![m, k]⟩ .f32) (rhs : FVec Ideal ⟨2, ![n, k]⟩ .f32)
    (r : Fin m) (c : Fin n) :
    FloatOps.matmul d prec lhs rhs (constant (F := Ideal) ⟨2, ![m, n]⟩ .f32 0x00000000#32) (ix2 r c)
      = ∑ j : Fin k, lhs (ix2 r j) * rhs (ix2 c j) := by
  have hr : d.contr.rank = 1 := by rw [d.rank_contr, hlc]; rfl
  have hs : d.contr.size ⟨0, by omega⟩ = k :=
    (d.size_contr 0 (by rw [hlc]; exact Nat.one_pos)).trans (by simp [hlc])
  rw [Ideal.matmul_constant_zero_apply, ← Equiv.sum_comp (contrEquiv1 d k hr hs).symm]
  refine Finset.sum_congr rfl fun j _ => ?_
  have e1 : d.lhsIdx (ix2 r c) ((contrEquiv1 d k hr hs).symm j) = ix2 r j := funext fun a => Fin.ext (by
    match a with
    | ⟨0, _⟩ => exact lhsIdx_val_of_free d hlb hln _ _
    | ⟨1, _⟩ => exact (d.lhsIdx_val_of_single hlc _ _).trans (contrEquiv1_symm_val d k hr hs j))
  have e2 : d.rhsIdx (ix2 r c) ((contrEquiv1 d k hr hs).symm j) = ix2 c j := funext fun a => Fin.ext (by
    match a with
    | ⟨0, _⟩ => exact rhsIdx_val_of_free d hlb hrb hln hrn _ _
    | ⟨1, _⟩ => exact (d.rhsIdx_val_of_single hrc _ _).trans (contrEquiv1_symm_val d k hr hs j))
  rw [e1, e2]

end Cert.Pay

end
-- ==== Proof.Body0Val.lean ====
/-
  Region 0's kernel body at the exact instance, entry by entry.

  With the point's block v8 (one anchor's rows), its norm v11, the resident array Y2 (all anchors' rows) and the
  resident column norms Y4, trip k's block of exponentials is, at (t, s),

      e_k(t, s) = exp ( (Σ_d v8(0,t,d) · Y2(k,s,d)) / (v11(0,0,0) · Y4(k,0,s)) ).

  The first scratch block after k trips holds Σ_{j<k} e_j, the second Σ_{j<k} [j = the point's index] e_j, entry by
  entry (induction on k; a sum over the naturals below k, so that one more trip is one more term). After all 32
  trips the second sum has one nonzero term, and the output block holds log1p(Σ_j e_j − e_i)·(−1).
-/
import proofs.«113956_j5497558139284_1_alg».proof.Proof.Body0
import proofs.«113956_j5497558139284_1_alg».proof.Proof.Spec
import proofs.«113956_j5497558139284_1_alg».proof.Proof.LibDotRead
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.KernelIdeal.Body0

open Cert.KernelIdeal Cert.KernelIdeal.Gen

/-- The loop runs 32 trips. -/
theorem trips_eq : k0_t1_loop.trips = 32 := by decide

/-- Trip k's exponential at (t, s). -/
def expTerm (v8 : FVec Ideal S1x256x256 .f32) (v11 : FVec Ideal S1x1x1 .f32) (Y2 : FVec Ideal S32x256x256 .f32)
    (Y4 : FVec Ideal S32x1x256 .f32) (k : Fin 32) (t s : Fin 256) : EReal :=
  Ideal.exp (Ideal.div (∑ d : Fin 256, v8 (ix3 (0 : Fin 1) t d) * Y2 (ix3 k s d))
    (v11 (ix3 (0 : Fin 1) (0 : Fin 1) (0 : Fin 1)) * Y4 (ix3 k (0 : Fin 1) s)))

/-- The same over the naturals: zero past the last trip. -/
def expN (v8 : FVec Ideal S1x256x256 .f32) (v11 : FVec Ideal S1x1x1 .f32) (Y2 : FVec Ideal S32x256x256 .f32)
    (Y4 : FVec Ideal S32x1x256 .f32) (t s : Fin 256) (j : ℕ) : EReal :=
  if h : j < 32 then expTerm v8 v11 Y2 Y4 ⟨j, h⟩ t s else 0

/-- The block of exponentials from the four loaded blocks, at (t, s). -/
theorem pay3_at (v8 : FVec Ideal S1x256x256 .f32) (v11 : FVec Ideal S1x1x1 .f32) (v26 : FVec Ideal S1x256x256 .f32)
    (v30 : FVec Ideal S1x1x256 .f32) (t s : Fin 256) :
    k0_pay3 (F := Ideal) v8 v11 v26 v30 (ix2 t s)
      = Ideal.exp (Ideal.div (∑ d : Fin 256, v8 (ix3 (0 : Fin 1) t d) * v26 (ix3 (0 : Fin 1) s d))
          (v11 (ix3 (0 : Fin 1) (0 : Fin 1) (0 : Fin 1)) * v30 (ix3 (0 : Fin 1) (0 : Fin 1) s))) := by
  unfold k0_pay3
  try dsimp only
  refine congrArg Ideal.exp (congrArg₂ Ideal.div ?_ ?_)
  · refine (Cert.Pay.matmul_plain_apply dot_S256x256_S256x256_S256x256_1_0_0_1_n_n rfl rfl rfl rfl rfl rfl none _ _ t s).trans ?_
    refine Finset.sum_congr rfl fun d _ => ?_
    refine congrArg₂ (· * ·) ?_ ?_
    · exact shapeCast_1ab_ab_apply v8 shapeCasts_S1x256x256_S256x256 t d
    · exact (transpose_ix2_apply _ transposes_S256x256_p1_0_S256x256 d s).trans
        (shapeCast_1ab_ab_apply v26 shapeCasts_S1x256x256_S256x256 s d)
  · refine (broadcastTo_1b_ab_apply _ broadcasts_S1x256_S256x256 t s).trans ?_
    refine congrArg₂ (· * ·) ?_ ?_
    · exact congrArg v11 (funext fun a => Fin.ext (by match a with | ⟨0, _⟩ => rfl | ⟨1, _⟩ => rfl | ⟨2, _⟩ => rfl))
    · refine (shapeCast_a_1a_apply _ shapeCasts_S256_S1x256 (0 : Fin 1) s).trans ?_
      refine shapeCast_apply v30 shapeCasts_S1x1x256_S256 (ix1 s) (ix3 (0 : Fin 1) (0 : Fin 1) s) ?_
      rw [Shape.rowMajor_val_three, Shape.rowMajor_val_one]
      show (0 * 1 + 0) * 256 + s.val = s.val
      omega

/-- Row-block k of the resident array, loaded, reads the array at anchor k. -/
theorem ld_rows (Y2 : FVec Ideal S32x256x256 .f32) (k : Fin k0_t1_loop.trips) (hk : k.val < 32) (u : Fin 1)
    (s d : Fin 256) :
    View.ld (Val := Elt Ideal) (S := S32x256x256) (e' := .f32) Y2 (Rect.unit (s := S32x256x256) (k0_off1 k) S1x256x256.size (k0_off1_inb k)) (ix3 u s d) = Y2 (ix3 ⟨k.val, hk⟩ s d) := by
  show Y2 ((Rect.unit (s := S32x256x256) (k0_off1 k) S1x256x256.size (k0_off1_inb k)).idx (ix3 u s d)) = _
  refine congrArg Y2 (funext fun a => Fin.ext ?_)
  have hoff := k0_off1_eq k
  have hu := u.isLt
  match a with
  | ⟨0, _⟩ => show k0_off1 k 0 + 1 * u.val = k.val; rw [hoff]; show k.val + 1 * u.val = k.val; omega
  | ⟨1, _⟩ => show k0_off1 k 1 + 1 * s.val = s.val; rw [hoff]; show 0 + 1 * s.val = s.val; omega
  | ⟨2, _⟩ => show k0_off1 k 2 + 1 * d.val = d.val; rw [hoff]; show 0 + 1 * d.val = d.val; omega

/-- Row k of the resident column norms, loaded, reads them at anchor k. -/
theorem ld_norms (Y4 : FVec Ideal S32x1x256 .f32) (k : Fin k0_t1_loop.trips) (hk : k.val < 32) (u v : Fin 1)
    (s : Fin 256) :
    View.ld (Val := Elt Ideal) (S := S32x1x256) (e' := .f32) Y4 (Rect.unit (s := S32x1x256) (k0_off2 k) S1x1x256.size (k0_off2_inb k)) (ix3 u v s) = Y4 (ix3 ⟨k.val, hk⟩ (0 : Fin 1) s) := by
  show Y4 ((Rect.unit (s := S32x1x256) (k0_off2 k) S1x1x256.size (k0_off2_inb k)).idx (ix3 u v s)) = _
  refine congrArg Y4 (funext fun a => Fin.ext ?_)
  have hoff := k0_off2_eq k
  have hu := u.isLt
  have hv := v.isLt
  match a with
  | ⟨0, _⟩ => show k0_off2 k 0 + 1 * u.val = k.val; rw [hoff]; show k.val + 1 * u.val = k.val; omega
  | ⟨1, _⟩ => show k0_off2 k 1 + 1 * v.val = 0; rw [hoff]; show 0 + 1 * v.val = 0; omega
  | ⟨2, _⟩ => show k0_off2 k 2 + 1 * s.val = s.val; rw [hoff]; show 0 + 1 * s.val = s.val; omega

/-- Trip k's block of exponentials from the resident arrays. -/
theorem pay3_trip (v8 : FVec Ideal S1x256x256 .f32) (v11 : FVec Ideal S1x1x1 .f32) (Y2 : FVec Ideal S32x256x256 .f32)
    (Y4 : FVec Ideal S32x1x256 .f32) (k : Fin k0_t1_loop.trips) (hk : k.val < 32) (t s : Fin 256) :
    k0_pay3 (F := Ideal) v8 v11 (View.ld (Val := Elt Ideal) (S := S32x256x256) (e' := .f32) Y2 (Rect.unit (s := S32x256x256) (k0_off1 k) S1x256x256.size (k0_off1_inb k)))
        (View.ld (Val := Elt Ideal) (S := S32x1x256) (e' := .f32) Y4 (Rect.unit (s := S32x1x256) (k0_off2 k) S1x1x256.size (k0_off2_inb k))) (ix2 t s)
      = expTerm v8 v11 Y2 Y4 ⟨k.val, hk⟩ t s := by
  refine (pay3_at v8 v11 _ _ t s).trans ?_
  unfold expTerm
  refine congrArg Ideal.exp (congrArg₂ Ideal.div (Finset.sum_congr rfl fun d _ => ?_) ?_)
  · exact congrArg (v8 (ix3 (0 : Fin 1) t d) * ·) (ld_rows Y2 k hk 0 s d)
  · exact congrArg (v11 (ix3 (0 : Fin 1) (0 : Fin 1) (0 : Fin 1)) * ·) (ld_norms Y4 k hk 0 0 s)

/-- The comparison of the loop index with the grid index selects the trip whose number is the grid index. -/
theorem select_trip {α : Type} (k n : ℕ) (hk : k < 32) (hn : n < 32) (a b : α) :
    Scalar.select (Scalar.cmpi .eq (Scf.iv 0#32 1#32 k) (BitVec.ofNat 32 n)) a b = if k = n then a else b := by
  have e : Scf.iv (0#32 : BitVec 32) 1#32 k = BitVec.ofNat 32 k := by simp [Scf.iv]
  rw [e]
  show (if BitVec.ofBool (BitVec.ofNat 32 k == BitVec.ofNat 32 n) = 1#1 then a else b) = _
  by_cases h : k = n
  · subst h
    rw [beq_self_eq_true, if_pos rfl]
    exact if_pos (by decide)
  · have hne : BitVec.ofNat 32 k ≠ BitVec.ofNat 32 n := fun hh => h (by
      have := congrArg BitVec.toNat hh
      simp only [BitVec.toNat_ofNat] at this
      omega)
    rw [beq_false_of_ne hne, if_neg h]
    exact if_neg (by decide)

/-- The zero-fill reads zero. -/
theorem pay1_at (y : S1x256x256.Idx) : k0_pay1 (F := Ideal) y = 0 := by
  unfold k0_pay1
  try dsimp only
  rw [shapeCast_self]
  exact Ideal.ofBits_zero_f32

theorem pay2_at (y : S1x256x256.Idx) : k0_pay2 (F := Ideal) y = 0 := by
  unfold k0_pay2
  try dsimp only
  rw [shapeCast_self]
  exact Ideal.ofBits_zero_f32

/-- One trip's first store: the block it found plus the trip's exponentials. -/
theorem pay4_at (v8 : FVec Ideal S1x256x256 .f32) (v11 : FVec Ideal S1x1x1 .f32) (v26 : FVec Ideal S1x256x256 .f32)
    (v30 : FVec Ideal S1x1x256 .f32) (v40 : FVec Ideal S1x256x256 .f32) (u : Fin 1) (t s : Fin 256) :
    k0_pay4 (F := Ideal) v8 v11 v26 v30 v40 (ix3 u t s)
      = v40 (ix3 (0 : Fin 1) t s) + k0_pay3 (F := Ideal) v8 v11 v26 v30 (ix2 t s) := by
  unfold k0_pay4
  try dsimp only
  refine (shapeCast_ab_1ab_apply _ shapeCasts_S256x256_S1x256x256 u t s).trans ?_
  exact congrArg (· + k0_pay3 (F := Ideal) v8 v11 v26 v30 (ix2 t s)) (shapeCast_1ab_ab_apply v40 shapeCasts_S1x256x256_S256x256 t s)

/-- One trip's second store: the block it found plus the trip's exponentials if the trip is the grid point's own. -/
theorem pay5_at (i : grid0.Coords) (v8 : FVec Ideal S1x256x256 .f32) (v11 : FVec Ideal S1x1x1 .f32)
    (k : Fin k0_t1_loop.trips) (hk : k.val < 32) (hi : (i 0).val < 32) (v26 : FVec Ideal S1x256x256 .f32)
    (v30 : FVec Ideal S1x1x256 .f32) (v47 : FVec Ideal S1x256x256 .f32) (u : Fin 1) (t s : Fin 256) :
    k0_pay5 (F := Ideal) i v8 v11 k v26 v30 v47 (ix3 u t s)
      = v47 (ix3 (0 : Fin 1) t s)
        + (if k.val = (i 0).val then k0_pay3 (F := Ideal) v8 v11 v26 v30 (ix2 t s) else 0) := by
  unfold k0_pay5
  try dsimp only
  refine (shapeCast_ab_1ab_apply _ shapeCasts_S256x256_S1x256x256 u t s).trans ?_
  refine congrArg₂ (· + ·) (shapeCast_1ab_ab_apply v47 shapeCasts_S1x256x256_S256x256 t s) ?_
  rw [select_trip k.val (i 0).val hk hi]
  split
  · rfl
  · exact Ideal.ofBits_zero_f32

/-- The last store: log1p of the difference of the two scratch blocks, times the word of −1. -/
theorem pay6_at (v14 v16 : FVec Ideal S1x256x256 .f32) (u : Fin 1) (t s : Fin 256) :
    k0_pay6 (F := Ideal) v14 v16 (ix3 u t s)
      = Ideal.log1p (v14 (ix3 (0 : Fin 1) t s) - v16 (ix3 (0 : Fin 1) t s)) * Cert.Contrast.negOne := by
  unfold k0_pay6
  try dsimp only
  refine (shapeCast_ab_1ab_apply _ shapeCasts_S256x256_S1x256x256 u t s).trans ?_
  refine congrArg (Ideal.log1p · * Cert.Contrast.negOne) ?_
  exact congrArg₂ (· - ·) (shapeCast_1ab_ab_apply v14 shapeCasts_S1x256x256_S256x256 t s)
    (shapeCast_1ab_ab_apply v16 shapeCasts_S1x256x256_S256x256 t s)

/-- The scratch blocks after k trips are the two partial sums. -/
theorem scratch_val (i : grid0.Coords) (v8 : FVec Ideal S1x256x256 .f32) (v11 : FVec Ideal S1x1x1 .f32)
    (Y2 : FVec Ideal S32x256x256 .f32) (Y4 : FVec Ideal S32x1x256 .f32) (hi : (i 0).val < 32) (t s : Fin 256) (k : ℕ)
    (hk : k ≤ 32) (u : Fin 1) :
    (scratchAfter (F := Ideal) i v8 v11 Y2 Y4 k).1 (ix3 u t s) = ∑ j ∈ Finset.range k, expN v8 v11 Y2 Y4 t s j
    ∧ (scratchAfter (F := Ideal) i v8 v11 Y2 Y4 k).2 (ix3 u t s)
        = ∑ j ∈ Finset.range k, if j = (i 0).val then expN v8 v11 Y2 Y4 t s j else 0 := by
  induction k generalizing u with
  | zero =>
    exact ⟨(pay1_at (ix3 u t s)).trans (Finset.sum_range_zero _).symm,
      (pay2_at (ix3 u t s)).trans (Finset.sum_range_zero _).symm⟩
  | succ k ih =>
    have hk32 : k < 32 := hk
    have hk' : k < k0_t1_loop.trips := by rw [trips_eq]; exact hk32
    obtain ⟨ih1, ih2⟩ := ih (Nat.le_of_lt hk32) 0
    have he : expN v8 v11 Y2 Y4 t s k = expTerm v8 v11 Y2 Y4 ⟨k, hk32⟩ t s := dif_pos hk32
    rw [scratchAfter, dif_pos hk', Finset.sum_range_succ, Finset.sum_range_succ]
    refine ⟨?_, ?_⟩
    · show k0_pay4 (F := Ideal) v8 v11 _ _ _ (ix3 u t s) = _
      rw [pay4_at, ih1, pay3_trip v8 v11 Y2 Y4 ⟨k, hk'⟩ hk32, he]
    · show k0_pay5 (F := Ideal) i v8 v11 ⟨k, hk'⟩ _ _ _ (ix3 u t s) = _
      rw [pay5_at i v8 v11 ⟨k, hk'⟩ hk32 hi, ih2, pay3_trip v8 v11 Y2 Y4 ⟨k, hk'⟩ hk32, he]

section Out

variable (c : Dev nD) (i : grid0.Coords) (arg1 : Memref sig .tc .vmem S1x256x256 .f32) (harg1 : arg1.IsWhole) (arg2 : Memref sig .tc .vmem S32x256x256 .f32) (harg2 : arg2.IsWhole) (arg3 : Memref sig .tc .vmem S1x1x1 .f32) (harg3 : arg3.IsWhole) (arg4 : Memref sig .tc .vmem S32x1x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .f32) (harg7 : arg7.IsWhole)

/-- The output block at (t, s): log1p of the sum over all anchors' exponentials minus the point's own, times −1. -/
theorem out_val (x0 : FVec Ideal S1x256x256 .f32) (x1 : FVec Ideal S32x256x256 .f32) (x2 : FVec Ideal S1x1x1 .f32)
    (x3 : FVec Ideal S32x1x256 .f32) (hi : (i 0).val < 32) (u : Fin 1) (t s : Fin 256) :
    out0_A_4 (F := Ideal) c i arg1 harg1 arg2 harg2 arg3 harg3 arg4 harg4 arg5 harg5 arg6 harg6 arg7 harg7 x0 x1 x2 x3 (ix3 u t s)
      = Ideal.log1p ((∑ j : Fin 32, expTerm x0 x2 x1 x3 j t s) - expTerm x0 x2 x1 x3 ⟨(i 0).val, hi⟩ t s)
          * Cert.Contrast.negOne := by
  rw [out_eq, pay6_at, trips_eq]
  obtain ⟨e1, e2⟩ := scratch_val i x0 x2 x1 x3 hi t s 32 le_rfl 0
  rw [e1, e2, Finset.sum_ite_eq' (Finset.range 32) (i 0).val, if_pos (Finset.mem_range.mpr hi),
    Finset.sum_range (expN x0 x2 x1 x3 t s)]
  refine congrArg (Ideal.log1p · * Cert.Contrast.negOne) (congrArg₂ (· - ·) ?_ ?_)
  · exact Finset.sum_congr rfl fun j _ => dif_pos j.isLt
  · exact dif_pos hi

end Out

end Cert.KernelIdeal.Body0

end
-- ==== Proof.RegionSpec.lean ====
/-
  What one launch of the kernel leaves in its [32, 256, 256] result, as a function of the four arrays it reads:
  a (the anchors whose rows are taken one block per grid point), b (resident: all anchors' rows), n (a norm per
  anchor, shape [32, 1, 1]) and cn (a norm per anchor and column, shape [32, 1, 256]):

      at (i, t, s):   log1p ( Σ_j e(i,j,t,s) − e(i,i,t,s) ) · (−1),
      e(i,j,t,s) = exp ( (Σ_d a(i,t,d) · b(j,s,d)) / (n(i,0,0) · cn(j,0,s)) ).

  With n and cn the reshaped norms this is the specification's D times −1.
-/
import proofs.«113956_j5497558139284_1_alg».proof.Proof.Spec

noncomputable section

namespace Cert.Contrast

open Idealize.ShloMosaic Idealize.ShloMosaic.ValueIdx
open scoped BigOperators

/-- [32, 1, 1]: the per-anchor norms as the kernel is handed them. -/
abbrev SN3 : Shape := ⟨3, ![32, 1, 1]⟩
/-- [32, 1, 256]: the per-anchor, per-column norms as the kernel is handed them. -/
abbrev SC3 : Shape := ⟨3, ![32, 1, 256]⟩

/-- exp of the normalised inner product, over the arrays as the kernel is handed them. -/
def regE (a b : SA.Idx → EReal) (n : SN3.Idx → EReal) (cn : SC3.Idx → EReal) (i j : Fin 32) (t s : Fin 256) : EReal :=
  Ideal.exp (Ideal.div (∑ d : Fin 256, a (ix3 i t d) * b (ix3 j s d))
    (n (ix3 i (0 : Fin 1) (0 : Fin 1)) * cn (ix3 j (0 : Fin 1) s)))

/-- One launch's result at (i, t, s). -/
def regionAt (a b : SA.Idx → EReal) (n : SN3.Idx → EReal) (cn : SC3.Idx → EReal) (i : Fin 32) (t s : Fin 256) : EReal :=
  Ideal.log1p ((∑ j : Fin 32, regE a b n cn i j t s) - regE a b n cn i i t s) * negOne

/-- One launch's result array. -/
def regionOut (a b : SA.Idx → EReal) (n : SN3.Idx → EReal) (cn : SC3.Idx → EReal) : SA.Idx → EReal :=
  fun q => regionAt a b n cn (q 0) (q 1) (q 2)

/-- With the norms reshaped from vn and an, a launch's result is the specification's D, scaled. -/
theorem regionAt_eq_D (a b : SA.Idx → EReal) (n : SN3.Idx → EReal) (cn : SC3.Idx → EReal) (vn : SN.Idx → EReal)
    (an : SC.Idx → EReal) (hn : ∀ i : Fin 32, n (ix3 i (0 : Fin 1) (0 : Fin 1)) = vn (ix1 i))
    (hcn : ∀ (j : Fin 32) (s : Fin 256), cn (ix3 j (0 : Fin 1) s) = an (ix2 j s)) (i : Fin 32) (t s : Fin 256) :
    regionAt a b n cn i t s = D a b vn an i t s * negOne := by
  have hE : ∀ j, regE a b n cn i j t s = E a b vn an i j t s := fun j => by
    unfold regE E dotRow
    rw [hn, hcn]
  unfold regionAt D
  rw [hE i, Finset.sum_congr rfl fun j _ => hE j]

end Cert.Contrast

end
-- ==== Proof.Region0.lean ====
/-
  Launch 0: from blocks to the array.

  Grid point t (of 32) is handed block t of the first array (anchor t's rows) and of the per-anchor norms, and the
  whole of the resident array and of the per-column norms; it writes back block t of the result. Each block's
  coordinate in its array is the block's index times the block's size plus the coordinate inside the block, and
  the index maps are decided once over the grid. So what point t writes back is block t of ONE function of the four
  arrays, the 32 blocks tile the result, and the result array after the launch is that function.
-/
import proofs.«113956_j5497558139284_1_alg».proof.Proof.Body0Val
import proofs.«113956_j5497558139284_1_alg».proof.Proof.RegionSpec
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert.KernelIdeal Cert.KernelIdeal.Gen Cert.KernelIdeal.Body0 Cert.Contrast

variable (V : (c : Dev nD) → (b : Ref sig .tc) → Buf (Elt Ideal) ((c : Thread nD τ).loc b))

/-- The printed index maps over the grid: windows 0, 2 and 4 sit at block (t, 0, 0), windows 1 and 3 at (0, 0, 0),
    and the grid coordinate of point t is t. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ ((grid0.coords t) 0).val = t.val :=
  (by decide +kernel : ∀ t : Fin grid0.N, _)

theorem t_lt (t : Fin cfg0.N) : t.val < 32 := Nat.lt_of_lt_of_le t.isLt (Nat.le_of_eq N_0)

/-- Block t of the first array reads anchor t. -/
theorem blk_a (c : Dev nD) (t : Fin cfg0.N) (u : Fin 1) (p d : Fin 256) :
    (iblk0 V c 0 t : Vec Ideal S1x256x256 .f32) (ix3 u p d) = V c main_arg2 (ix3 ⟨t.val, t_lt t⟩ p d) := by
  obtain ⟨⟨e0, e1, e2⟩, -⟩ := idx_facts t
  have hu := u.isLt
  show V c main_arg2 (((cfg0.win 0).blk t).view.emb (ix3 u p d)) = V c main_arg2 _
  refine congrArg (V c main_arg2) (funext fun a => Fin.ext ?_)
  match a with
  | ⟨0, _⟩ => show win0_0.index t (0 : Fin 3) * 1 + 1 * u.val = t.val; omega
  | ⟨1, _⟩ => show win0_0.index t (1 : Fin 3) * 256 + 1 * p.val = p.val; omega
  | ⟨2, _⟩ => show win0_0.index t (2 : Fin 3) * 256 + 1 * d.val = d.val; omega

/-- The resident array's one block is the array. -/
theorem blk_b (c : Dev nD) (t : Fin cfg0.N) (j : Fin 32) (s d : Fin 256) :
    (iblk0 V c 1 t : Vec Ideal S32x256x256 .f32) (ix3 j s d) = V c main_arg3 (ix3 j s d) := by
  obtain ⟨-, ⟨e0, e1, e2⟩, -⟩ := idx_facts t
  show V c main_arg3 (((cfg0.win 1).blk t).view.emb (ix3 j s d)) = V c main_arg3 _
  refine congrArg (V c main_arg3) (funext fun a => Fin.ext ?_)
  match a with
  | ⟨0, _⟩ => show win0_1.index t (0 : Fin 3) * 32 + 1 * j.val = j.val; omega
  | ⟨1, _⟩ => show win0_1.index t (1 : Fin 3) * 256 + 1 * s.val = s.val; omega
  | ⟨2, _⟩ => show win0_1.index t (2 : Fin 3) * 256 + 1 * d.val = d.val; omega

/-- Block t of the per-anchor norms reads anchor t's. -/
theorem blk_n (c : Dev nD) (t : Fin cfg0.N) (u v w : Fin 1) :
    (iblk0 V c 2 t : Vec Ideal S1x1x1 .f32) (ix3 u v w) = V c main_v10 (ix3 ⟨t.val, t_lt t⟩ (0 : Fin 1) (0 : Fin 1)) := by
  obtain ⟨-, -, ⟨e0, e1, e2⟩, -⟩ := idx_facts t
  have hu := u.isLt
  have hv := v.isLt
  have hw := w.isLt
  show V c main_v10 (((cfg0.win 2).blk t).view.emb (ix3 u v w)) = V c main_v10 _
  refine congrArg (V c main_v10) (funext fun a => Fin.ext ?_)
  match a with
  | ⟨0, _⟩ => show win0_2.index t (0 : Fin 3) * 1 + 1 * u.val = t.val; omega
  | ⟨1, _⟩ => show win0_2.index t (1 : Fin 3) * 1 + 1 * v.val = 0; omega
  | ⟨2, _⟩ => show win0_2.index t (2 : Fin 3) * 1 + 1 * w.val = 0; omega

/-- The per-column norms' one block is the array. -/
theorem blk_cn (c : Dev nD) (t : Fin cfg0.N) (j : Fin 32) (v : Fin 1) (s : Fin 256) :
    (iblk0 V c 3 t : Vec Ideal S32x1x256 .f32) (ix3 j v s) = V c main_v11 (ix3 j (0 : Fin 1) s) := by
  obtain ⟨-, -, -, ⟨e0, e1, e2⟩, -⟩ := idx_facts t
  have hv := v.isLt
  show V c main_v11 (((cfg0.win 3).blk t).view.emb (ix3 j v s)) = V c main_v11 _
  refine congrArg (V c main_v11) (funext fun a => Fin.ext ?_)
  match a with
  | ⟨0, _⟩ => show win0_3.index t (0 : Fin 3) * 32 + 1 * j.val = j.val; omega
  | ⟨1, _⟩ => show win0_3.index t (1 : Fin 3) * 1 + 1 * v.val = 0; omega
  | ⟨2, _⟩ => show win0_3.index t (2 : Fin 3) * 256 + 1 * s.val = s.val; omega

/-- The point's exponentials, over the arrays as the launch finds them. -/
theorem expTerm_blocks (c : Dev nD) (t : Fin cfg0.N) (j : Fin 32) (p q : Fin 256) :
    expTerm (iblk0 V c 0 t) (iblk0 V c 2 t) (iblk0 V c 1 t) (iblk0 V c 3 t) j p q
      = regE (V c main_arg2) (V c main_arg3) (V c main_v10) (V c main_v11) ⟨t.val, t_lt t⟩ j p q := by
  unfold expTerm regE
  refine congrArg Ideal.exp (congrArg₂ Ideal.div (Finset.sum_congr rfl fun d _ => ?_) ?_)
  · exact congrArg₂ (· * ·) (blk_a V c t 0 p d) (blk_b V c t j q d)
  · exact congrArg₂ (· * ·) (blk_n V c t 0 0 0) (blk_cn V c t j 0 q)

/-- An entry of block t of the result sits at anchor t. -/
theorem emb_out (t : Fin cfg0.N) (u : Fin 1) (p q : Fin 256) :
    ((cfg0.win 4).blk t).view.emb (ix3 u p q) = (ix3 ⟨t.val, t_lt t⟩ p q : S32x256x256.Idx) := by
  obtain ⟨-, -, -, -, ⟨e0, e1, e2⟩, -⟩ := idx_facts t
  have hu := u.isLt
  refine funext fun a => Fin.ext ?_
  match a with
  | ⟨0, _⟩ => show win0_4.index t (0 : Fin 3) * 1 + 1 * u.val = t.val; omega
  | ⟨1, _⟩ => show win0_4.index t (1 : Fin 3) * 256 + 1 * p.val = p.val; omega
  | ⟨2, _⟩ => show win0_4.index t (2 : Fin 3) * 256 + 1 * q.val = q.val; omega

/-- WHAT POINT t WRITES BACK is block t of the launch's function of the four arrays. -/
theorem flushed_eq (c : Dev nD) (t : Fin cfg0.N) :
    (dat0 V c).flushed 4 t
      = ((cfg0.win 4).blk t).view.read (Elt Ideal)
          (regionOut (V c main_arg2) (V c main_arg3) (V c main_v10) (V c main_v11)) := by
  have hi : ((grid0.coords t) 0).val < 32 := by rw [(idx_facts t).2.2.2.2.2]; exact t_lt t
  have hie : (⟨((grid0.coords t) 0).val, hi⟩ : Fin 32) = ⟨t.val, t_lt t⟩ := Fin.ext (idx_facts t).2.2.2.2.2
  show (cfg0.win 4).cut (grid0.coords t) ((dat0 V c).after 4 t) = _
  rw [after0_4]
  unfold outsAt0
  funext y
  obtain ⟨u, p, q, rfl⟩ : ∃ (u : Fin 1) (p q : Fin 256), y = ix3 u p q := ⟨y 0, y 1, y 2, eq_ix3 y⟩
  show out0_A_4 (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) scM0_1 (Memref.isWhole_whole _) (iblk0 V c 0 t) (iblk0 V c 1 t)
      (iblk0 V c 2 t) (iblk0 V c 3 t) (ix3 u p q)
    = regionOut (V c main_arg2) (V c main_arg3) (V c main_v10) (V c main_v11) (((cfg0.win 4).blk t).view.emb (ix3 u p q))
  refine (out_val c (grid0.coords t) (ms0_0 t) (hs0_0 t) (ms0_1 t) (hs0_1 t) (ms0_2 t) (hs0_2 t) (ms0_3 t) (hs0_3 t)
      (ms0_4 t) (hs0_4 t) scM0_0 (Memref.isWhole_whole _) scM0_1 (Memref.isWhole_whole _) (iblk0 V c 0 t) (iblk0 V c 1 t)
      (iblk0 V c 2 t) (iblk0 V c 3 t) hi u p q).trans ?_
  rw [emb_out t u p q, hie]
  show _ = regionAt (V c main_arg2) (V c main_arg3) (V c main_v10) (V c main_v11) ⟨t.val, t_lt t⟩ p q
  unfold regionAt
  rw [expTerm_blocks V c t ⟨t.val, t_lt t⟩ p q, Finset.sum_congr rfl fun j _ => expTerm_blocks V c t j p q]

/-- An index of the result array is in point t's block iff each coordinate is in the block's range on its axis. -/
theorem mem_blk (t : Fin cfg0.N) (i : S32x256x256.Idx) :
    i ∈ ((cfg0.win 4).blk t).view.set ↔ ∀ a : Fin 3, win0_4.index t a * S1x256x256.size a ≤ (i a).val ∧ (i a).val < win0_4.index t a * S1x256x256.size a + S1x256x256.size a := by
  show i ∈ ((View.whole main_v12).slice (win0_4.rect t)).set ↔ _
  rw [View.set_slice_whole, Rect.mem_set_unit]
  exact Iff.rfl

/-- THE ARRAY after the launch: the launch's function of the four arrays as it finds them. -/
theorem final (c : Dev nD) :
    (dat0 V c).arrAt 4 cfg0.N = regionOut (V c main_arg2) (V c main_arg3) (V c main_v10) (V c main_v11) :=
  (dat0 V c).arrAt_eq_of_cover 4 _ (fun t _ => flushed_eq V c t) fun i => by
    have h0 : (i 0).val < 32 := (i 0).isLt
    have h1 : (i 1).val < 256 := (i 1).isLt
    have h2 : (i 2).val < 256 := (i 2).isLt
    have hN : cfg0.N = 32 := N_0
    refine ⟨⟨(i 0).val, by rw [hN]; exact h0⟩, flush0_4 _, ?_⟩
    rw [mem_blk]
    obtain ⟨-, -, -, -, ⟨e0, e1, e2⟩, -⟩ := idx_facts ⟨(i 0).val, by rw [hN]; exact h0⟩
    intro a
    match a with
    | ⟨0, _⟩ => show win0_4.index _ (0 : Fin 3) * 1 ≤ (i 0).val ∧ (i 0).val < win0_4.index _ (0 : Fin 3) * 1 + 1; rw [e0]; show (i 0).val * 1 ≤ (i 0).val ∧ (i 0).val < (i 0).val * 1 + 1; omega
    | ⟨1, _⟩ => show win0_4.index _ (1 : Fin 3) * 256 ≤ (i 1).val ∧ (i 1).val < win0_4.index _ (1 : Fin 3) * 256 + 256; rw [e1]; omega
    | ⟨2, _⟩ => show win0_4.index _ (2 : Fin 3) * 256 ≤ (i 2).val ∧ (i 2).val < win0_4.index _ (2 : Fin 3) * 256 + 256; rw [e2]; omega

end Cert.KernelIdeal.Region0

end
-- ==== Proof.Body1.lean ====
/-
  Region 1's kernel body, read as values.

  At a grid point the body zero-fills two scratch blocks (a running sum and the anchor's own term), then runs 32
  trips; trip k loads row-block k of the resident array and row k of the resident column norms, forms the block of
  exponentials e_k from them and from the point's own block and norm, adds e_k into the first scratch block, and
  adds e_k into the second only when k is the grid point's own index. After the loop it stores
  log1p(first − second)·(−1) into the output block.

  So the scratch blocks after k trips follow a recursion on k whose step is the two payloads of one trip, and the
  output block is the last payload applied to the scratch blocks after all trips. Each store covers its whole
  block, so what a block holds after a store is that store's payload, whatever it held before.
-/
import proofs.«113956_j5497558139284_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body1

open Cert.KernelIdeal Cert.KernelIdeal.Gen

variable {F : FTy → Type} [FloatOps F]

theorem hz3 : (![0, 0, 0] : Fin 3 → Nat) = fun _ => 0 := funext fun a => by fin_cases a <;> rfl

/-- A store through the whole block, made last, leaves its payload: whatever was stored before. -/
theorem read_store_whole {sig : RefSig} {κ : Kind} {sp : Space} {S : Shape} {e : EltTy} {Val : EltTy → Type}
    [∀ e, Nonempty (Val e)] (v : View sig κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

/-- The two scratch blocks after k trips, from the point's block v8 and norm v11 and the two resident arrays. -/
def scratchAfter (i : grid1.Coords) (v8 : Vec F S1x256x256 .f32) (v11 : Vec F S1x1x1 .f32)
    (Y2 : Vec F S32x256x256 .f32) (Y4 : Vec F S32x1x256 .f32) : ℕ → Vec F S1x256x256 .f32 × Vec F S1x256x256 .f32
  | 0 => (k1_pay1, k1_pay2)
  | k + 1 =>
    if h : k < k1_t1_loop.trips then
      (k1_pay4 v8 v11 (View.ld Y2 (Rect.unit (k1_off1 ⟨k, h⟩) S1x256x256.size (k1_off1_inb ⟨k, h⟩)))
          (View.ld Y4 (Rect.unit (k1_off2 ⟨k, h⟩) S1x1x256.size (k1_off2_inb ⟨k, h⟩))) (scratchAfter i v8 v11 Y2 Y4 k).1,
        k1_pay5 i v8 v11 ⟨k, h⟩ (View.ld Y2 (Rect.unit (k1_off1 ⟨k, h⟩) S1x256x256.size (k1_off1_inb ⟨k, h⟩)))
          (View.ld Y4 (Rect.unit (k1_off2 ⟨k, h⟩) S1x1x256.size (k1_off2_inb ⟨k, h⟩))) (scratchAfter i v8 v11 Y2 Y4 k).2)
    else scratchAfter i v8 v11 Y2 Y4 k

section Pieces

variable (c : Dev nD) (i : grid1.Coords) (arg1 : Memref sig .tc .vmem S1x256x256 .f32) (harg1 : arg1.IsWhole) (arg2 : Memref sig .tc .vmem S32x256x256 .f32) (harg2 : arg2.IsWhole) (arg3 : Memref sig .tc .vmem S1x1x1 .f32) (harg3 : arg3.IsWhole) (arg4 : Memref sig .tc .vmem S32x1x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .f32) (harg7 : arg7.IsWhole)

/-- One trip's stores: one whole-block store into each scratch block, of the trip's two payloads. -/
theorem trip_pieces (v8 : Vec F S1x256x256 .f32) (v11 : Vec F S1x1x1 .f32) (X2 : BufTy.Contents (Elt F) arg2.view.ty)
    (X4 : BufTy.Contents (Elt F) arg4.view.ty) (k : Fin k1_t1_loop.trips) (f6 : BufTy.Contents (Elt F) arg6.view.ty)
    (f7 : BufTy.Contents (Elt F) arg7.view.ty) :
    tripL_k1_t1 (F := F) Variants.none c none i arg1 harg1 arg2 harg2 arg3 harg3 arg4 harg4 arg5 harg5 arg6 harg6 arg7 harg7 v8 v11 X2 X4 k f6 f7
      = ([⟨(Rect.unit (s := S1x256x256) ![0, 0, 0] S1x256x256.size inb_S1x256x256_S1x256x256_0_0_0),
            k1_pay4 v8 v11 (View.ld (arg2.view.read (Elt F) X2) (Rect.unit (k1_off1 k) S1x256x256.size (k1_off1_inb k)))
              (View.ld (arg4.view.read (Elt F) X4) (Rect.unit (k1_off2 k) S1x1x256.size (k1_off2_inb k)))
              (View.ld (arg6.view.read (Elt F) f6) (Rect.unit (s := S1x256x256) ![0, 0, 0] S1x256x256.size inb_S1x256x256_S1x256x256_0_0_0))⟩],
         [⟨(Rect.unit (s := S1x256x256) ![0, 0, 0] S1x256x256.size inb_S1x256x256_S1x256x256_0_0_0),
            k1_pay5 i v8 v11 k (View.ld (arg2.view.read (Elt F) X2) (Rect.unit (k1_off1 k) S1x256x256.size (k1_off1_inb k)))
              (View.ld (arg4.view.read (Elt F) X4) (Rect.unit (k1_off2 k) S1x1x256.size (k1_off2_inb k)))
              (View.ld (arg7.view.read (Elt F) f7) (Rect.unit (s := S1x256x256) ![0, 0, 0] S1x256x256.size inb_S1x256x256_S1x256x256_0_0_0))⟩]) := by
  unfold tripL_k1_t1
  unfold trip_k1_t1
  rfl

end Pieces

section Run

variable (c : Dev nD) (i : grid1.Coords) (arg1 : Memref sig .tc .vmem S1x256x256 .f32) (harg1 : arg1.IsWhole) (arg2 : Memref sig .tc .vmem S32x256x256 .f32) (harg2 : arg2.IsWhole) (arg3 : Memref sig .tc .vmem S1x1x1 .f32) (harg3 : arg3.IsWhole) (arg4 : Memref sig .tc .vmem S32x1x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .f32) (harg7 : arg7.IsWhole)

/-- After the trips before k, started from scratch blocks that read as the two zero-fills, the scratch blocks read as
    the recursion at k: by induction on k, one trip's two whole-block stores per step. -/
theorem scratch_eq (v8 : Vec F S1x256x256 .f32) (v11 : Vec F S1x1x1 .f32) (X2 : BufTy.Contents (Elt F) arg2.view.ty)
    (X4 : BufTy.Contents (Elt F) arg4.view.ty) (G6 : BufTy.Contents (Elt F) arg6.view.ty)
    (G7 : BufTy.Contents (Elt F) arg7.view.ty) (h6 : arg6.view.read (Elt F) G6 = k1_pay1)
    (h7 : arg7.view.read (Elt F) G7 = k1_pay2) (k : ℕ) (hk : k ≤ k1_t1_loop.trips) :
    arg6.view.read (Elt F) (arg6.view.writes (Elt F) G6
        (pb_k1_t1 (F := F) Variants.none c none i arg1 harg1 arg2 harg2 arg3 harg3 arg4 harg4 arg5 harg5 arg6 harg6 arg7 harg7 v8 v11 X2 X4 G6 G7 k).1)
      = (scratchAfter i v8 v11 (arg2.view.read (Elt F) X2) (arg4.view.read (Elt F) X4) k).1
    ∧ arg7.view.read (Elt F) (arg7.view.writes (Elt F) G7
        (pb_k1_t1 (F := F) Variants.none c none i arg1 harg1 arg2 harg2 arg3 harg3 arg4 harg4 arg5 harg5 arg6 harg6 arg7 harg7 v8 v11 X2 X4 G6 G7 k).2)
      = (scratchAfter i v8 v11 (arg2.view.read (Elt F) X2) (arg4.view.read (Elt F) X4) k).2 := by
  induction k with
  | zero => exact ⟨h6, h7⟩
  | succ k ih =>
    have hk' : k < k1_t1_loop.trips := hk
    obtain ⟨ih6, ih7⟩ := ih (Nat.le_of_lt hk')
    have hs := pb_k1_t1_succ (F := F) Variants.none c none i arg1 harg1 arg2 harg2 arg3 harg3 arg4 harg4 arg5 harg5 arg6 harg6 arg7 harg7 v8 v11 X2 X4 G6 G7 ⟨k, hk'⟩
    rw [trip_pieces] at hs
    have hs' : pb_k1_t1 (F := F) Variants.none c none i arg1 harg1 arg2 harg2 arg3 harg3 arg4 harg4 arg5 harg5 arg6 harg6 arg7 harg7 v8 v11 X2 X4 G6 G7 (k + 1) = _ := hs
    rw [hs']
    refine ⟨?_, ?_⟩
    · show arg6.view.read (Elt F) (arg6.view.writes (Elt F) G6 (_ :: _)) = _
      rw [read_store_whole _ _ hz3, View.ld_unit_zero (S := S1x256x256) hz3, ih6, scratchAfter, dif_pos hk']
    · show arg7.view.read (Elt F) (arg7.view.writes (Elt F) G7 (_ :: _)) = _
      rw [read_store_whole _ _ hz3, View.ld_unit_zero (S := S1x256x256) hz3, ih7, scratchAfter, dif_pos hk']

/-- What the body leaves in the output block: the last payload of the scratch blocks after all the trips. -/
theorem out_eq (x0 : Vec F S1x256x256 .f32) (x1 : Vec F S32x256x256 .f32) (x2 : Vec F S1x1x1 .f32)
    (x3 : Vec F S32x1x256 .f32) :
    out1_A_4 (F := F) c i arg1 harg1 arg2 harg2 arg3 harg3 arg4 harg4 arg5 harg5 arg6 harg6 arg7 harg7 x0 x1 x2 x3
      = k1_pay6 (scratchAfter i x0 x2 x1 x3 k1_t1_loop.trips).1 (scratchAfter i x0 x2 x1 x3 k1_t1_loop.trips).2 := by
  unfold out1_A_4
  rw [View.read_writes_eq_canon _ _ _ (cover1_A_4 c i arg1 harg1 arg2 harg2 arg3 harg3 arg4 harg4 arg5 harg5 arg6 harg6 arg7 harg7 x0 x1 x2 x3)]
  unfold kernelRun1_A
  dsimp only
  sl_unfold_words
  rw [View.canon_unit_zero hz3]
  simp only [View.readAt_eq_ld, View.ld_unit_zero (S := S1x256x256) hz3, View.ld_unit_zero (S := S1x1x1) hz3,
    View.writes_append, harg1.read_unread, harg3.read_unread]
  obtain ⟨e6, e7⟩ := scratch_eq (F := F) c i arg1 harg1 arg2 harg2 arg3 harg3 arg4 harg4 arg5 harg5 arg6 harg6 arg7 harg7 x0 x2 (harg2.unread x1) (harg4.unread x3)
    (arg6.view.writes (Elt F) arg6.view.junk [⟨(Rect.unit (s := S1x256x256) ![0, 0, 0] S1x256x256.size inb_S1x256x256_S1x256x256_0_0_0), k1_pay1⟩])
    (arg7.view.writes (Elt F) arg7.view.junk [⟨(Rect.unit (s := S1x256x256) ![0, 0, 0] S1x256x256.size inb_S1x256x256_S1x256x256_0_0_0), k1_pay2⟩])
    (read_store_whole _ _ hz3 _ _ []) (read_store_whole _ _ hz3 _ _ []) k1_t1_loop.trips le_rfl
  rw [harg2.read_unread, harg4.read_unread] at e6 e7
  exact congrArg₂ k1_pay6 e6 e7

end Run

end Cert.KernelIdeal.Body1

end
-- ==== Proof.Body1Val.lean ====
/-
  Region 1's kernel body at the exact instance, entry by entry.

  With the point's block v8 (one anchor's rows), its norm v11, the resident array Y2 (all anchors' rows) and the
  resident column norms Y4, trip k's block of exponentials is, at (t, s),

      e_k(t, s) = exp ( (Σ_d v8(0,t,d) · Y2(k,s,d)) / (v11(0,0,0) · Y4(k,0,s)) ).

  The first scratch block after k trips holds Σ_{j<k} e_j, the second Σ_{j<k} [j = the point's index] e_j, entry by
  entry (induction on k; a sum over the naturals below k, so that one more trip is one more term). After all 32
  trips the second sum has one nonzero term, and the output block holds log1p(Σ_j e_j − e_i)·(−1).
-/
import proofs.«113956_j5497558139284_1_alg».proof.Proof.Body1
import proofs.«113956_j5497558139284_1_alg».proof.Proof.Spec
import proofs.«113956_j5497558139284_1_alg».proof.Proof.LibDotRead
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.KernelIdeal.Body1

open Cert.KernelIdeal Cert.KernelIdeal.Gen

/-- The loop runs 32 trips. -/
theorem trips_eq : k1_t1_loop.trips = 32 := by decide

/-- Trip k's exponential at (t, s). -/
def expTerm (v8 : FVec Ideal S1x256x256 .f32) (v11 : FVec Ideal S1x1x1 .f32) (Y2 : FVec Ideal S32x256x256 .f32)
    (Y4 : FVec Ideal S32x1x256 .f32) (k : Fin 32) (t s : Fin 256) : EReal :=
  Ideal.exp (Ideal.div (∑ d : Fin 256, v8 (ix3 (0 : Fin 1) t d) * Y2 (ix3 k s d))
    (v11 (ix3 (0 : Fin 1) (0 : Fin 1) (0 : Fin 1)) * Y4 (ix3 k (0 : Fin 1) s)))

/-- The same over the naturals: zero past the last trip. -/
def expN (v8 : FVec Ideal S1x256x256 .f32) (v11 : FVec Ideal S1x1x1 .f32) (Y2 : FVec Ideal S32x256x256 .f32)
    (Y4 : FVec Ideal S32x1x256 .f32) (t s : Fin 256) (j : ℕ) : EReal :=
  if h : j < 32 then expTerm v8 v11 Y2 Y4 ⟨j, h⟩ t s else 0

/-- The block of exponentials from the four loaded blocks, at (t, s). -/
theorem pay3_at (v8 : FVec Ideal S1x256x256 .f32) (v11 : FVec Ideal S1x1x1 .f32) (v26 : FVec Ideal S1x256x256 .f32)
    (v30 : FVec Ideal S1x1x256 .f32) (t s : Fin 256) :
    k1_pay3 (F := Ideal) v8 v11 v26 v30 (ix2 t s)
      = Ideal.exp (Ideal.div (∑ d : Fin 256, v8 (ix3 (0 : Fin 1) t d) * v26 (ix3 (0 : Fin 1) s d))
          (v11 (ix3 (0 : Fin 1) (0 : Fin 1) (0 : Fin 1)) * v30 (ix3 (0 : Fin 1) (0 : Fin 1) s))) := by
  unfold k1_pay3
  try dsimp only
  refine congrArg Ideal.exp (congrArg₂ Ideal.div ?_ ?_)
  · refine (Cert.Pay.matmul_plain_apply dot_S256x256_S256x256_S256x256_1_0_0_1_n_n rfl rfl rfl rfl rfl rfl none _ _ t s).trans ?_
    refine Finset.sum_congr rfl fun d _ => ?_
    refine congrArg₂ (· * ·) ?_ ?_
    · exact shapeCast_1ab_ab_apply v8 shapeCasts_S1x256x256_S256x256 t d
    · exact (transpose_ix2_apply _ transposes_S256x256_p1_0_S256x256 d s).trans
        (shapeCast_1ab_ab_apply v26 shapeCasts_S1x256x256_S256x256 s d)
  · refine (broadcastTo_1b_ab_apply _ broadcasts_S1x256_S256x256 t s).trans ?_
    refine congrArg₂ (· * ·) ?_ ?_
    · exact congrArg v11 (funext fun a => Fin.ext (by match a with | ⟨0, _⟩ => rfl | ⟨1, _⟩ => rfl | ⟨2, _⟩ => rfl))
    · refine (shapeCast_a_1a_apply _ shapeCasts_S256_S1x256 (0 : Fin 1) s).trans ?_
      refine shapeCast_apply v30 shapeCasts_S1x1x256_S256 (ix1 s) (ix3 (0 : Fin 1) (0 : Fin 1) s) ?_
      rw [Shape.rowMajor_val_three, Shape.rowMajor_val_one]
      show (0 * 1 + 0) * 256 + s.val = s.val
      omega

/-- Row-block k of the resident array, loaded, reads the array at anchor k. -/
theorem ld_rows (Y2 : FVec Ideal S32x256x256 .f32) (k : Fin k1_t1_loop.trips) (hk : k.val < 32) (u : Fin 1)
    (s d : Fin 256) :
    View.ld (Val := Elt Ideal) (S := S32x256x256) (e' := .f32) Y2 (Rect.unit (s := S32x256x256) (k1_off1 k) S1x256x256.size (k1_off1_inb k)) (ix3 u s d) = Y2 (ix3 ⟨k.val, hk⟩ s d) := by
  show Y2 ((Rect.unit (s := S32x256x256) (k1_off1 k) S1x256x256.size (k1_off1_inb k)).idx (ix3 u s d)) = _
  refine congrArg Y2 (funext fun a => Fin.ext ?_)
  have hoff := k1_off1_eq k
  have hu := u.isLt
  match a with
  | ⟨0, _⟩ => show k1_off1 k 0 + 1 * u.val = k.val; rw [hoff]; show k.val + 1 * u.val = k.val; omega
  | ⟨1, _⟩ => show k1_off1 k 1 + 1 * s.val = s.val; rw [hoff]; show 0 + 1 * s.val = s.val; omega
  | ⟨2, _⟩ => show k1_off1 k 2 + 1 * d.val = d.val; rw [hoff]; show 0 + 1 * d.val = d.val; omega

/-- Row k of the resident column norms, loaded, reads them at anchor k. -/
theorem ld_norms (Y4 : FVec Ideal S32x1x256 .f32) (k : Fin k1_t1_loop.trips) (hk : k.val < 32) (u v : Fin 1)
    (s : Fin 256) :
    View.ld (Val := Elt Ideal) (S := S32x1x256) (e' := .f32) Y4 (Rect.unit (s := S32x1x256) (k1_off2 k) S1x1x256.size (k1_off2_inb k)) (ix3 u v s) = Y4 (ix3 ⟨k.val, hk⟩ (0 : Fin 1) s) := by
  show Y4 ((Rect.unit (s := S32x1x256) (k1_off2 k) S1x1x256.size (k1_off2_inb k)).idx (ix3 u v s)) = _
  refine congrArg Y4 (funext fun a => Fin.ext ?_)
  have hoff := k1_off2_eq k
  have hu := u.isLt
  have hv := v.isLt
  match a with
  | ⟨0, _⟩ => show k1_off2 k 0 + 1 * u.val = k.val; rw [hoff]; show k.val + 1 * u.val = k.val; omega
  | ⟨1, _⟩ => show k1_off2 k 1 + 1 * v.val = 0; rw [hoff]; show 0 + 1 * v.val = 0; omega
  | ⟨2, _⟩ => show k1_off2 k 2 + 1 * s.val = s.val; rw [hoff]; show 0 + 1 * s.val = s.val; omega

/-- Trip k's block of exponentials from the resident arrays. -/
theorem pay3_trip (v8 : FVec Ideal S1x256x256 .f32) (v11 : FVec Ideal S1x1x1 .f32) (Y2 : FVec Ideal S32x256x256 .f32)
    (Y4 : FVec Ideal S32x1x256 .f32) (k : Fin k1_t1_loop.trips) (hk : k.val < 32) (t s : Fin 256) :
    k1_pay3 (F := Ideal) v8 v11 (View.ld (Val := Elt Ideal) (S := S32x256x256) (e' := .f32) Y2 (Rect.unit (s := S32x256x256) (k1_off1 k) S1x256x256.size (k1_off1_inb k)))
        (View.ld (Val := Elt Ideal) (S := S32x1x256) (e' := .f32) Y4 (Rect.unit (s := S32x1x256) (k1_off2 k) S1x1x256.size (k1_off2_inb k))) (ix2 t s)
      = expTerm v8 v11 Y2 Y4 ⟨k.val, hk⟩ t s := by
  refine (pay3_at v8 v11 _ _ t s).trans ?_
  unfold expTerm
  refine congrArg Ideal.exp (congrArg₂ Ideal.div (Finset.sum_congr rfl fun d _ => ?_) ?_)
  · exact congrArg (v8 (ix3 (0 : Fin 1) t d) * ·) (ld_rows Y2 k hk 0 s d)
  · exact congrArg (v11 (ix3 (0 : Fin 1) (0 : Fin 1) (0 : Fin 1)) * ·) (ld_norms Y4 k hk 0 0 s)

/-- The comparison of the loop index with the grid index selects the trip whose number is the grid index. -/
theorem select_trip {α : Type} (k n : ℕ) (hk : k < 32) (hn : n < 32) (a b : α) :
    Scalar.select (Scalar.cmpi .eq (Scf.iv 0#32 1#32 k) (BitVec.ofNat 32 n)) a b = if k = n then a else b := by
  have e : Scf.iv (0#32 : BitVec 32) 1#32 k = BitVec.ofNat 32 k := by simp [Scf.iv]
  rw [e]
  show (if BitVec.ofBool (BitVec.ofNat 32 k == BitVec.ofNat 32 n) = 1#1 then a else b) = _
  by_cases h : k = n
  · subst h
    rw [beq_self_eq_true, if_pos rfl]
    exact if_pos (by decide)
  · have hne : BitVec.ofNat 32 k ≠ BitVec.ofNat 32 n := fun hh => h (by
      have := congrArg BitVec.toNat hh
      simp only [BitVec.toNat_ofNat] at this
      omega)
    rw [beq_false_of_ne hne, if_neg h]
    exact if_neg (by decide)

/-- The zero-fill reads zero. -/
theorem pay1_at (y : S1x256x256.Idx) : k1_pay1 (F := Ideal) y = 0 := by
  unfold k1_pay1
  try dsimp only
  rw [shapeCast_self]
  exact Ideal.ofBits_zero_f32

theorem pay2_at (y : S1x256x256.Idx) : k1_pay2 (F := Ideal) y = 0 := by
  unfold k1_pay2
  try dsimp only
  rw [shapeCast_self]
  exact Ideal.ofBits_zero_f32

/-- One trip's first store: the block it found plus the trip's exponentials. -/
theorem pay4_at (v8 : FVec Ideal S1x256x256 .f32) (v11 : FVec Ideal S1x1x1 .f32) (v26 : FVec Ideal S1x256x256 .f32)
    (v30 : FVec Ideal S1x1x256 .f32) (v40 : FVec Ideal S1x256x256 .f32) (u : Fin 1) (t s : Fin 256) :
    k1_pay4 (F := Ideal) v8 v11 v26 v30 v40 (ix3 u t s)
      = v40 (ix3 (0 : Fin 1) t s) + k1_pay3 (F := Ideal) v8 v11 v26 v30 (ix2 t s) := by
  unfold k1_pay4
  try dsimp only
  refine (shapeCast_ab_1ab_apply _ shapeCasts_S256x256_S1x256x256 u t s).trans ?_
  exact congrArg (· + k1_pay3 (F := Ideal) v8 v11 v26 v30 (ix2 t s)) (shapeCast_1ab_ab_apply v40 shapeCasts_S1x256x256_S256x256 t s)

/-- One trip's second store: the block it found plus the trip's exponentials if the trip is the grid point's own. -/
theorem pay5_at (i : grid1.Coords) (v8 : FVec Ideal S1x256x256 .f32) (v11 : FVec Ideal S1x1x1 .f32)
    (k : Fin k1_t1_loop.trips) (hk : k.val < 32) (hi : (i 0).val < 32) (v26 : FVec Ideal S1x256x256 .f32)
    (v30 : FVec Ideal S1x1x256 .f32) (v47 : FVec Ideal S1x256x256 .f32) (u : Fin 1) (t s : Fin 256) :
    k1_pay5 (F := Ideal) i v8 v11 k v26 v30 v47 (ix3 u t s)
      = v47 (ix3 (0 : Fin 1) t s)
        + (if k.val = (i 0).val then k1_pay3 (F := Ideal) v8 v11 v26 v30 (ix2 t s) else 0) := by
  unfold k1_pay5
  try dsimp only
  refine (shapeCast_ab_1ab_apply _ shapeCasts_S256x256_S1x256x256 u t s).trans ?_
  refine congrArg₂ (· + ·) (shapeCast_1ab_ab_apply v47 shapeCasts_S1x256x256_S256x256 t s) ?_
  rw [select_trip k.val (i 0).val hk hi]
  split
  · rfl
  · exact Ideal.ofBits_zero_f32

/-- The last store: log1p of the difference of the two scratch blocks, times the word of −1. -/
theorem pay6_at (v14 v16 : FVec Ideal S1x256x256 .f32) (u : Fin 1) (t s : Fin 256) :
    k1_pay6 (F := Ideal) v14 v16 (ix3 u t s)
      = Ideal.log1p (v14 (ix3 (0 : Fin 1) t s) - v16 (ix3 (0 : Fin 1) t s)) * Cert.Contrast.negOne := by
  unfold k1_pay6
  try dsimp only
  refine (shapeCast_ab_1ab_apply _ shapeCasts_S256x256_S1x256x256 u t s).trans ?_
  refine congrArg (Ideal.log1p · * Cert.Contrast.negOne) ?_
  exact congrArg₂ (· - ·) (shapeCast_1ab_ab_apply v14 shapeCasts_S1x256x256_S256x256 t s)
    (shapeCast_1ab_ab_apply v16 shapeCasts_S1x256x256_S256x256 t s)

/-- The scratch blocks after k trips are the two partial sums. -/
theorem scratch_val (i : grid1.Coords) (v8 : FVec Ideal S1x256x256 .f32) (v11 : FVec Ideal S1x1x1 .f32)
    (Y2 : FVec Ideal S32x256x256 .f32) (Y4 : FVec Ideal S32x1x256 .f32) (hi : (i 0).val < 32) (t s : Fin 256) (k : ℕ)
    (hk : k ≤ 32) (u : Fin 1) :
    (scratchAfter (F := Ideal) i v8 v11 Y2 Y4 k).1 (ix3 u t s) = ∑ j ∈ Finset.range k, expN v8 v11 Y2 Y4 t s j
    ∧ (scratchAfter (F := Ideal) i v8 v11 Y2 Y4 k).2 (ix3 u t s)
        = ∑ j ∈ Finset.range k, if j = (i 0).val then expN v8 v11 Y2 Y4 t s j else 0 := by
  induction k generalizing u with
  | zero =>
    exact ⟨(pay1_at (ix3 u t s)).trans (Finset.sum_range_zero _).symm,
      (pay2_at (ix3 u t s)).trans (Finset.sum_range_zero _).symm⟩
  | succ k ih =>
    have hk32 : k < 32 := hk
    have hk' : k < k1_t1_loop.trips := by rw [trips_eq]; exact hk32
    obtain ⟨ih1, ih2⟩ := ih (Nat.le_of_lt hk32) 0
    have he : expN v8 v11 Y2 Y4 t s k = expTerm v8 v11 Y2 Y4 ⟨k, hk32⟩ t s := dif_pos hk32
    rw [scratchAfter, dif_pos hk', Finset.sum_range_succ, Finset.sum_range_succ]
    refine ⟨?_, ?_⟩
    · show k1_pay4 (F := Ideal) v8 v11 _ _ _ (ix3 u t s) = _
      rw [pay4_at, ih1, pay3_trip v8 v11 Y2 Y4 ⟨k, hk'⟩ hk32, he]
    · show k1_pay5 (F := Ideal) i v8 v11 ⟨k, hk'⟩ _ _ _ (ix3 u t s) = _
      rw [pay5_at i v8 v11 ⟨k, hk'⟩ hk32 hi, ih2, pay3_trip v8 v11 Y2 Y4 ⟨k, hk'⟩ hk32, he]

section Out

variable (c : Dev nD) (i : grid1.Coords) (arg1 : Memref sig .tc .vmem S1x256x256 .f32) (harg1 : arg1.IsWhole) (arg2 : Memref sig .tc .vmem S32x256x256 .f32) (harg2 : arg2.IsWhole) (arg3 : Memref sig .tc .vmem S1x1x1 .f32) (harg3 : arg3.IsWhole) (arg4 : Memref sig .tc .vmem S32x1x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .f32) (harg7 : arg7.IsWhole)

/-- The output block at (t, s): log1p of the sum over all anchors' exponentials minus the point's own, times −1. -/
theorem out_val (x0 : FVec Ideal S1x256x256 .f32) (x1 : FVec Ideal S32x256x256 .f32) (x2 : FVec Ideal S1x1x1 .f32)
    (x3 : FVec Ideal S32x1x256 .f32) (hi : (i 0).val < 32) (u : Fin 1) (t s : Fin 256) :
    out1_A_4 (F := Ideal) c i arg1 harg1 arg2 harg2 arg3 harg3 arg4 harg4 arg5 harg5 arg6 harg6 arg7 harg7 x0 x1 x2 x3 (ix3 u t s)
      = Ideal.log1p ((∑ j : Fin 32, expTerm x0 x2 x1 x3 j t s) - expTerm x0 x2 x1 x3 ⟨(i 0).val, hi⟩ t s)
          * Cert.Contrast.negOne := by
  rw [out_eq, pay6_at, trips_eq]
  obtain ⟨e1, e2⟩ := scratch_val i x0 x2 x1 x3 hi t s 32 le_rfl 0
  rw [e1, e2, Finset.sum_ite_eq' (Finset.range 32) (i 0).val, if_pos (Finset.mem_range.mpr hi),
    Finset.sum_range (expN x0 x2 x1 x3 t s)]
  refine congrArg (Ideal.log1p · * Cert.Contrast.negOne) (congrArg₂ (· - ·) ?_ ?_)
  · exact Finset.sum_congr rfl fun j _ => dif_pos j.isLt
  · exact dif_pos hi

end Out

end Cert.KernelIdeal.Body1

end
-- ==== Proof.Region1.lean ====
/-
  Launch 1: from blocks to the array.

  Grid point t (of 32) is handed block t of the first array (anchor t's rows) and of the per-anchor norms, and the
  whole of the resident array and of the per-column norms; it writes back block t of the result. Each block's
  coordinate in its array is the block's index times the block's size plus the coordinate inside the block, and
  the index maps are decided once over the grid. So what point t writes back is block t of ONE function of the four
  arrays, the 32 blocks tile the result, and the result array after the launch is that function.
-/
import proofs.«113956_j5497558139284_1_alg».proof.Proof.Body1Val
import proofs.«113956_j5497558139284_1_alg».proof.Proof.RegionSpec
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Region1

open Cert.KernelIdeal Cert.KernelIdeal.Gen Cert.KernelIdeal.Body1 Cert.Contrast

variable (V : (c : Dev nD) → (b : Ref sig .tc) → Buf (Elt Ideal) ((c : Thread nD τ).loc b))

/-- The printed index maps over the grid: windows 0, 2 and 4 sit at block (t, 0, 0), windows 1 and 3 at (0, 0, 0),
    and the grid coordinate of point t is t. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = 0 ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = 0 ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0)
    ∧ ((grid1.coords t) 0).val = t.val :=
  (by decide +kernel : ∀ t : Fin grid1.N, _)

theorem t_lt (t : Fin cfg1.N) : t.val < 32 := Nat.lt_of_lt_of_le t.isLt (Nat.le_of_eq N_1)

/-- Block t of the first array reads anchor t. -/
theorem blk_a (c : Dev nD) (t : Fin cfg1.N) (u : Fin 1) (p d : Fin 256) :
    (iblk1 V c 0 t : Vec Ideal S1x256x256 .f32) (ix3 u p d) = V c main_arg3 (ix3 ⟨t.val, t_lt t⟩ p d) := by
  obtain ⟨⟨e0, e1, e2⟩, -⟩ := idx_facts t
  have hu := u.isLt
  show V c main_arg3 (((cfg1.win 0).blk t).view.emb (ix3 u p d)) = V c main_arg3 _
  refine congrArg (V c main_arg3) (funext fun a => Fin.ext ?_)
  match a with
  | ⟨0, _⟩ => show win1_0.index t (0 : Fin 3) * 1 + 1 * u.val = t.val; omega
  | ⟨1, _⟩ => show win1_0.index t (1 : Fin 3) * 256 + 1 * p.val = p.val; omega
  | ⟨2, _⟩ => show win1_0.index t (2 : Fin 3) * 256 + 1 * d.val = d.val; omega

/-- The resident array's one block is the array. -/
theorem blk_b (c : Dev nD) (t : Fin cfg1.N) (j : Fin 32) (s d : Fin 256) :
    (iblk1 V c 1 t : Vec Ideal S32x256x256 .f32) (ix3 j s d) = V c main_arg2 (ix3 j s d) := by
  obtain ⟨-, ⟨e0, e1, e2⟩, -⟩ := idx_facts t
  show V c main_arg2 (((cfg1.win 1).blk t).view.emb (ix3 j s d)) = V c main_arg2 _
  refine congrArg (V c main_arg2) (funext fun a => Fin.ext ?_)
  match a with
  | ⟨0, _⟩ => show win1_1.index t (0 : Fin 3) * 32 + 1 * j.val = j.val; omega
  | ⟨1, _⟩ => show win1_1.index t (1 : Fin 3) * 256 + 1 * s.val = s.val; omega
  | ⟨2, _⟩ => show win1_1.index t (2 : Fin 3) * 256 + 1 * d.val = d.val; omega

/-- Block t of the per-anchor norms reads anchor t's. -/
theorem blk_n (c : Dev nD) (t : Fin cfg1.N) (u v w : Fin 1) :
    (iblk1 V c 2 t : Vec Ideal S1x1x1 .f32) (ix3 u v w) = V c main_v23 (ix3 ⟨t.val, t_lt t⟩ (0 : Fin 1) (0 : Fin 1)) := by
  obtain ⟨-, -, ⟨e0, e1, e2⟩, -⟩ := idx_facts t
  have hu := u.isLt
  have hv := v.isLt
  have hw := w.isLt
  show V c main_v23 (((cfg1.win 2).blk t).view.emb (ix3 u v w)) = V c main_v23 _
  refine congrArg (V c main_v23) (funext fun a => Fin.ext ?_)
  match a with
  | ⟨0, _⟩ => show win1_2.index t (0 : Fin 3) * 1 + 1 * u.val = t.val; omega
  | ⟨1, _⟩ => show win1_2.index t (1 : Fin 3) * 1 + 1 * v.val = 0; omega
  | ⟨2, _⟩ => show win1_2.index t (2 : Fin 3) * 1 + 1 * w.val = 0; omega

/-- The per-column norms' one block is the array. -/
theorem blk_cn (c : Dev nD) (t : Fin cfg1.N) (j : Fin 32) (v : Fin 1) (s : Fin 256) :
    (iblk1 V c 3 t : Vec Ideal S32x1x256 .f32) (ix3 j v s) = V c main_v24 (ix3 j (0 : Fin 1) s) := by
  obtain ⟨-, -, -, ⟨e0, e1, e2⟩, -⟩ := idx_facts t
  have hv := v.isLt
  show V c main_v24 (((cfg1.win 3).blk t).view.emb (ix3 j v s)) = V c main_v24 _
  refine congrArg (V c main_v24) (funext fun a => Fin.ext ?_)
  match a with
  | ⟨0, _⟩ => show win1_3.index t (0 : Fin 3) * 32 + 1 * j.val = j.val; omega
  | ⟨1, _⟩ => show win1_3.index t (1 : Fin 3) * 1 + 1 * v.val = 0; omega
  | ⟨2, _⟩ => show win1_3.index t (2 : Fin 3) * 256 + 1 * s.val = s.val; omega

/-- The point's exponentials, over the arrays as the launch finds them. -/
theorem expTerm_blocks (c : Dev nD) (t : Fin cfg1.N) (j : Fin 32) (p q : Fin 256) :
    expTerm (iblk1 V c 0 t) (iblk1 V c 2 t) (iblk1 V c 1 t) (iblk1 V c 3 t) j p q
      = regE (V c main_arg3) (V c main_arg2) (V c main_v23) (V c main_v24) ⟨t.val, t_lt t⟩ j p q := by
  unfold expTerm regE
  refine congrArg Ideal.exp (congrArg₂ Ideal.div (Finset.sum_congr rfl fun d _ => ?_) ?_)
  · exact congrArg₂ (· * ·) (blk_a V c t 0 p d) (blk_b V c t j q d)
  · exact congrArg₂ (· * ·) (blk_n V c t 0 0 0) (blk_cn V c t j 0 q)

/-- An entry of block t of the result sits at anchor t. -/
theorem emb_out (t : Fin cfg1.N) (u : Fin 1) (p q : Fin 256) :
    ((cfg1.win 4).blk t).view.emb (ix3 u p q) = (ix3 ⟨t.val, t_lt t⟩ p q : S32x256x256.Idx) := by
  obtain ⟨-, -, -, -, ⟨e0, e1, e2⟩, -⟩ := idx_facts t
  have hu := u.isLt
  refine funext fun a => Fin.ext ?_
  match a with
  | ⟨0, _⟩ => show win1_4.index t (0 : Fin 3) * 1 + 1 * u.val = t.val; omega
  | ⟨1, _⟩ => show win1_4.index t (1 : Fin 3) * 256 + 1 * p.val = p.val; omega
  | ⟨2, _⟩ => show win1_4.index t (2 : Fin 3) * 256 + 1 * q.val = q.val; omega

/-- WHAT POINT t WRITES BACK is block t of the launch's function of the four arrays. -/
theorem flushed_eq (c : Dev nD) (t : Fin cfg1.N) :
    (dat1 V c).flushed 4 t
      = ((cfg1.win 4).blk t).view.read (Elt Ideal)
          (regionOut (V c main_arg3) (V c main_arg2) (V c main_v23) (V c main_v24)) := by
  have hi : ((grid1.coords t) 0).val < 32 := by rw [(idx_facts t).2.2.2.2.2]; exact t_lt t
  have hie : (⟨((grid1.coords t) 0).val, hi⟩ : Fin 32) = ⟨t.val, t_lt t⟩ := Fin.ext (idx_facts t).2.2.2.2.2
  show (cfg1.win 4).cut (grid1.coords t) ((dat1 V c).after 4 t) = _
  rw [after1_4]
  unfold outsAt1
  funext y
  obtain ⟨u, p, q, rfl⟩ : ∃ (u : Fin 1) (p q : Fin 256), y = ix3 u p q := ⟨y 0, y 1, y 2, eq_ix3 y⟩
  show out1_A_4 (F := Ideal) c (grid1.coords t) (ms1_0 t) (hs1_0 t) (ms1_1 t) (hs1_1 t) (ms1_2 t) (hs1_2 t) (ms1_3 t) (hs1_3 t)
      (ms1_4 t) (hs1_4 t) scM1_0 (Memref.isWhole_whole _) scM1_1 (Memref.isWhole_whole _) (iblk1 V c 0 t) (iblk1 V c 1 t)
      (iblk1 V c 2 t) (iblk1 V c 3 t) (ix3 u p q)
    = regionOut (V c main_arg3) (V c main_arg2) (V c main_v23) (V c main_v24) (((cfg1.win 4).blk t).view.emb (ix3 u p q))
  refine (out_val c (grid1.coords t) (ms1_0 t) (hs1_0 t) (ms1_1 t) (hs1_1 t) (ms1_2 t) (hs1_2 t) (ms1_3 t) (hs1_3 t)
      (ms1_4 t) (hs1_4 t) scM1_0 (Memref.isWhole_whole _) scM1_1 (Memref.isWhole_whole _) (iblk1 V c 0 t) (iblk1 V c 1 t)
      (iblk1 V c 2 t) (iblk1 V c 3 t) hi u p q).trans ?_
  rw [emb_out t u p q, hie]
  show _ = regionAt (V c main_arg3) (V c main_arg2) (V c main_v23) (V c main_v24) ⟨t.val, t_lt t⟩ p q
  unfold regionAt
  rw [expTerm_blocks V c t ⟨t.val, t_lt t⟩ p q, Finset.sum_congr rfl fun j _ => expTerm_blocks V c t j p q]

/-- An index of the result array is in point t's block iff each coordinate is in the block's range on its axis. -/
theorem mem_blk (t : Fin cfg1.N) (i : S32x256x256.Idx) :
    i ∈ ((cfg1.win 4).blk t).view.set ↔ ∀ a : Fin 3, win1_4.index t a * S1x256x256.size a ≤ (i a).val ∧ (i a).val < win1_4.index t a * S1x256x256.size a + S1x256x256.size a := by
  show i ∈ ((View.whole main_v25).slice (win1_4.rect t)).set ↔ _
  rw [View.set_slice_whole, Rect.mem_set_unit]
  exact Iff.rfl

/-- THE ARRAY after the launch: the launch's function of the four arrays as it finds them. -/
theorem final (c : Dev nD) :
    (dat1 V c).arrAt 4 cfg1.N = regionOut (V c main_arg3) (V c main_arg2) (V c main_v23) (V c main_v24) :=
  (dat1 V c).arrAt_eq_of_cover 4 _ (fun t _ => flushed_eq V c t) fun i => by
    have h0 : (i 0).val < 32 := (i 0).isLt
    have h1 : (i 1).val < 256 := (i 1).isLt
    have h2 : (i 2).val < 256 := (i 2).isLt
    have hN : cfg1.N = 32 := N_1
    refine ⟨⟨(i 0).val, by rw [hN]; exact h0⟩, flush1_4 _, ?_⟩
    rw [mem_blk]
    obtain ⟨-, -, -, -, ⟨e0, e1, e2⟩, -⟩ := idx_facts ⟨(i 0).val, by rw [hN]; exact h0⟩
    intro a
    match a with
    | ⟨0, _⟩ => show win1_4.index _ (0 : Fin 3) * 1 ≤ (i 0).val ∧ (i 0).val < win1_4.index _ (0 : Fin 3) * 1 + 1; rw [e0]; show (i 0).val * 1 ≤ (i 0).val ∧ (i 0).val < (i 0).val * 1 + 1; omega
    | ⟨1, _⟩ => show win1_4.index _ (1 : Fin 3) * 256 ≤ (i 1).val ∧ (i 1).val < win1_4.index _ (1 : Fin 3) * 256 + 256; rw [e1]; omega
    | ⟨2, _⟩ => show win1_4.index _ (2 : Fin 3) * 256 ≤ (i 2).val ∧ (i 2).val < win1_4.index _ (2 : Fin 3) * 256 + 256; rw [e2]; omega

end Cert.KernelIdeal.Region1

end
-- ==== Proof.LibRealSums.lean ====
/-
  GENERAL. Facts about sums and quotients of extended reals that are in fact real: a finite sum of reals is the real sum; a
  quotient by a nonzero real is a product; and the law the two programs differ by — dividing a weighted sum by a
  nonzero real is weighting the quotients.  Also the values of the five float literals the programs name.
-/
import Idealize.ShloMosaic.PureOps.Ideal
import Idealize.ShloMosaic.PureOps.Ideal.Laws

namespace Cert.Law

open Idealize.ShloMosaic

/-! ## The literals -/

theorem lit_zero : Ideal.ofBits .f32 0x00000000#32 = 0 := Ideal.ofBits_zero_f32
theorem lit_one : Ideal.ofBits .f32 0x3F800000#32 = ((1 : ℝ) : EReal) := by
  simp [Ideal.ofBits, Ideal.ieee]
  first
    | (norm_cast; norm_num)
    | (rw [← EReal.coe_mul]; norm_num)
    | (show ((8388608 : ℝ) : EReal) * (((2 : ℝ) ^ 23)⁻¹ : ℝ) = _; rw [← EReal.coe_mul]; norm_num)
theorem lit_two : Ideal.ofBits .f32 0x40000000#32 = ((2 : ℝ) : EReal) := by
  simp [Ideal.ofBits, Ideal.ieee]
  first
    | (norm_cast; norm_num)
    | (rw [← EReal.coe_mul]; norm_num)
    | (show ((8388608 : ℝ) : EReal) * (((2 : ℝ) ^ 22)⁻¹ : ℝ) = _; rw [← EReal.coe_mul]; norm_num)
theorem lit_neg_inf : Ideal.ofBits .f32 0xFF800000#32 = ⊥ := by simp [Ideal.ofBits, Ideal.ieee]

/-! ## Sums of reals -/

/-- A finite sum of reals, taken among the extended reals, is the real sum. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A quotient by the literal one is the dividend. -/
theorem div_one (x : EReal) : Ideal.div x (Ideal.ofBits .f32 0x3F800000#32) = x := by
  rw [lit_one, Ideal.div_coe one_ne_zero]; simp

/-- THE LAW: for real weights `p`, real factors `m` and a nonzero total, the weighted sum over the total is the sum
    of the quotients, each weighted. -/
theorem div_sum_mul {n : Nat} (p m : Fin n → EReal) (p' m' : Fin n → ℝ) (hp : ∀ j, p j = (p' j : EReal)) (hm : ∀ j, m j = (m' j : EReal))
    (hd : (∑ j, p' j) ≠ 0) :
    Ideal.div (∑ j, p j * m j) (∑ j, p j) = ∑ j, Ideal.div (p j) (∑ j, p j) * m j := by
  have hD : (∑ j, p j) = ((∑ j, p' j : ℝ) : EReal) := by rw [coe_sum]; exact Finset.sum_congr rfl fun j _ => hp j
  rw [hD, Ideal.div_coe hd]
  simp only [Ideal.div_coe hd, hp, hm, ← EReal.coe_mul]
  rw [← coe_sum, ← coe_sum, ← EReal.coe_mul]
  congr 1
  rw [Finset.sum_mul]
  exact Finset.sum_congr rfl fun j _ => by ring

end Cert.Law
-- ==== Proof.RealLaw.lean ====
/-
  When every entry of the two arrays is a real number and every norm is a positive real, every intermediate of
  the specification is a real number, and then scaling each direction by −1 before adding the two is scaling their
  sum: on the extended reals x·c + y·c = c·(x + y) holds as soon as x, y and c are real (it can fail when x and y
  are opposite infinities).

  The chain: an inner product of reals is real; a real divided by a nonzero real is real; exp of a real is a
  positive real; a sum of positive reals minus one of its terms is the sum of the others, so it is nonnegative;
  log of one plus a nonnegative real is real.
-/
import proofs.«113956_j5497558139284_1_alg».proof.Proof.Spec
import proofs.«113956_j5497558139284_1_alg».proof.Proof.LibRealSums

noncomputable section

namespace Cert.Contrast

open Idealize.ShloMosaic Idealize.ShloMosaic.ValueIdx
open scoped BigOperators

/-- The word 0xBF800000 is the real −1. -/
theorem negOne_eq : negOne = ((-1 : ℝ) : EReal) := by
  simp [negOne, Ideal.ofBits, Ideal.ieee]
  first
    | (norm_cast; norm_num)
    | (rw [← EReal.coe_mul]; norm_num)
    | (show ((8388608 : ℝ) : EReal) * (((2 : ℝ) ^ 23)⁻¹ : ℝ) = _; rw [← EReal.coe_mul]; norm_num)

/-- The word 0x219392EF (the float nearest 1e-18) is a positive real. -/
theorem eps_pos : ∃ ε : ℝ, 0 < ε ∧ Ideal.ofBits .f32 0x219392EF#32 = (ε : EReal) := by
  refine ⟨_, ?_, by simp [Ideal.ofBits, Ideal.ieee]; rfl⟩
  positivity

section Chain

variable (V A : SA.Idx → EReal) (vn : SN.Idx → EReal) (an : SC.Idx → EReal)

/-- An inner product of real rows is real. -/
theorem dotRow_real (hV : ∀ x, ∃ r : ℝ, V x = (r : EReal)) (hA : ∀ x, ∃ r : ℝ, A x = (r : EReal))
    (i j : Fin 32) (t s : Fin 256) : ∃ u : ℝ, dotRow V A i j t s = (u : EReal) := by
  choose v hv using hV
  choose a ha using hA
  refine ⟨∑ d : Fin 256, v (ix3 i t d) * a (ix3 j s d), ?_⟩
  unfold dotRow
  rw [Cert.Law.coe_sum]
  exact Finset.sum_congr rfl fun d _ => by rw [hv, ha, EReal.coe_mul]

/-- exp of a real quotient is a positive real. -/
theorem E_real_pos (hV : ∀ x, ∃ r : ℝ, V x = (r : EReal)) (hA : ∀ x, ∃ r : ℝ, A x = (r : EReal))
    (hvn : ∀ x, ∃ r : ℝ, 0 < r ∧ vn x = (r : EReal)) (han : ∀ x, ∃ r : ℝ, 0 < r ∧ an x = (r : EReal))
    (i j : Fin 32) (t s : Fin 256) : ∃ e : ℝ, 0 < e ∧ E V A vn an i j t s = (e : EReal) := by
  obtain ⟨u, hu⟩ := dotRow_real V A hV hA i j t s
  obtain ⟨p, hp, hpe⟩ := hvn (ix1 i)
  obtain ⟨q, hq, hqe⟩ := han (ix2 j s)
  have hpq : p * q ≠ 0 := (mul_pos hp hq).ne'
  refine ⟨Real.exp (u * (1 / (p * q))), Real.exp_pos _, ?_⟩
  unfold E
  rw [hu, hpe, hqe, ← EReal.coe_mul, Ideal.div_coe hpq, ← EReal.coe_mul]
  rfl

/-- log (1 + the sum of the other anchors' terms) is real. -/
theorem D_real (hV : ∀ x, ∃ r : ℝ, V x = (r : EReal)) (hA : ∀ x, ∃ r : ℝ, A x = (r : EReal))
    (hvn : ∀ x, ∃ r : ℝ, 0 < r ∧ vn x = (r : EReal)) (han : ∀ x, ∃ r : ℝ, 0 < r ∧ an x = (r : EReal))
    (i : Fin 32) (t s : Fin 256) : ∃ r : ℝ, D V A vn an i t s = (r : EReal) := by
  choose e hepos he using fun j => E_real_pos V A vn an hV hA hvn han i j t s
  have hsum : (∑ j : Fin 32, E V A vn an i j t s) - E V A vn an i i t s
      = ((∑ j ∈ Finset.univ.erase i, e j : ℝ) : EReal) := by
    rw [Finset.sum_congr rfl fun j _ => he j, ← Cert.Law.coe_sum, he i, ← EReal.coe_sub]
    congr 1
    rw [← Finset.add_sum_erase Finset.univ e (Finset.mem_univ i)]
    ring
  have hnn : 0 ≤ ∑ j ∈ Finset.univ.erase i, e j := Finset.sum_nonneg fun j _ => (hepos j).le
  refine ⟨Real.log (1 + ∑ j ∈ Finset.univ.erase i, e j), ?_⟩
  unfold D Ideal.log1p
  rw [hsum, ← EReal.coe_one, ← EReal.coe_add, Ideal.log_coe, if_neg (by linarith)]

end Chain

/-- Scaling two reals by a real and adding is scaling their sum. -/
theorem scale_add {x y c : EReal} (hx : ∃ r : ℝ, x = (r : EReal)) (hy : ∃ r : ℝ, y = (r : EReal))
    (hc : ∃ r : ℝ, c = (r : EReal)) : x * c + y * c = c * (x + y) := by
  obtain ⟨a, rfl⟩ := hx
  obtain ⟨b, rfl⟩ := hy
  obtain ⟨k, rfl⟩ := hc
  rw [← EReal.coe_mul, ← EReal.coe_mul, ← EReal.coe_add, ← EReal.coe_add, ← EReal.coe_mul]
  congr 1
  ring

/-- THE LAW: on real arrays with positive real norms, scaling each direction first gives the same result. -/
theorem Gscaled_eq_G (x2 x3 : SA.Idx → EReal) (vn2 vn3 : SN.Idx → EReal) (an2 an3 : SC.Idx → EReal)
    (h2 : ∀ x, ∃ r : ℝ, x2 x = (r : EReal)) (h3 : ∀ x, ∃ r : ℝ, x3 x = (r : EReal))
    (hvn2 : ∀ x, ∃ r : ℝ, 0 < r ∧ vn2 x = (r : EReal)) (hvn3 : ∀ x, ∃ r : ℝ, 0 < r ∧ vn3 x = (r : EReal))
    (han2 : ∀ x, ∃ r : ℝ, 0 < r ∧ an2 x = (r : EReal)) (han3 : ∀ x, ∃ r : ℝ, 0 < r ∧ an3 x = (r : EReal)) :
    Gscaled x2 x3 vn2 vn3 an2 an3 = G x2 x3 vn2 vn3 an2 an3 := by
  funext q
  unfold Gscaled G
  exact scale_add (D_real x2 x3 vn2 an3 h2 h3 hvn2 han3 _ _ _) (D_real x3 x2 vn3 an2 h3 h2 hvn3 han2 _ _ _)
    ⟨-1, negOne_eq⟩

/-! ## The norms are positive reals -/

/-- A sum, over any finite set, of squares of reals is a nonnegative real. -/
theorem sum_sq_real {ι : Type} (S : Finset ι) (x : ι → EReal) (hx : ∀ i, ∃ r : ℝ, x i = (r : EReal)) :
    ∃ u : ℝ, 0 ≤ u ∧ ∑ i ∈ S, x i * x i = (u : EReal) := by
  choose v hv using hx
  refine ⟨∑ i ∈ S, v i * v i, Finset.sum_nonneg fun i _ => mul_self_nonneg _, ?_⟩
  rw [Cert.Law.coe_sum]
  exact Finset.sum_congr rfl fun i _ => by rw [hv, EReal.coe_mul]

/-- The square root of (zero plus a sum of squares of reals, plus a positive real) is a positive real: the form of
    both norms, whatever axes are summed. -/
theorem sqrt_sumsq_pos {s t : Shape} {axes : List (Fin s.rank)} (h : s.ReducesTo axes t) (x : s.Idx → EReal)
    (hx : ∀ i, ∃ r : ℝ, x i = (r : EReal)) (j : t.Idx) :
    ∃ r : ℝ, 0 < r ∧ Ideal.sqrt (Ideal.hostReduceAdd h (fun i => x i * x i) (Ideal.ofBits .f32 0x00000000#32) j
        + Ideal.ofBits .f32 0x219392EF#32) = (r : EReal) := by
  obtain ⟨ε, hε, hεe⟩ := eps_pos
  obtain ⟨u, hu, hue⟩ := sum_sq_real (Finset.univ.filter fun i => h.drop i = j) x hx
  refine ⟨Real.sqrt (u + ε), Real.sqrt_pos.mpr (by linarith), ?_⟩
  unfold Ideal.hostReduceAdd
  rw [hue, hεe, Ideal.ofBits_zero_f32, zero_add, ← EReal.coe_add, Ideal.sqrt_coe, if_neg (by linarith)]

end Cert.Contrast

end
-- ==== Proof.Norms.lean ====
/-
  The two norms, as the host computes them, and that they are positive reals on real arrays.

      frob x (i)    = sqrt ( Σ_{t,d} x(i,t,d)² + ε )      one number per anchor
      col  x (j, s) = sqrt ( Σ_t   x(j,t,s)² + ε )        one number per anchor and column

  with ε the float nearest 1e-18. Both programs compute them by the same host operations (an elementwise square, a
  sum over the named axes started at zero, the constant added, a square root), so each is stated once here as that
  expression; the side conditions of the sum and of the constant's broadcast are parameters, so that either
  program's own witnesses fit.
-/
import proofs.«113956_j5497558139284_1_alg».proof.Proof.RealLaw

noncomputable section

namespace Cert.Contrast

open Idealize.ShloMosaic Idealize.ShloMosaic.ValueIdx

/-- The rank-zero shape of a scalar constant. -/
abbrev S0 : Shape := ⟨0, ![]⟩

/-- sqrt (sum of squares over the listed axes, from zero, plus ε): the host's expression. -/
def normOver {t : Shape} {axes : List (Fin SA.rank)} (h : SA.ReducesTo axes t) (hS : 0 < S0.numel)
    (hb : S0.BroadcastsInDim t (![] : Fin 0 → Fin t.rank)) (x : FVec Ideal SA .f32) : FVec Ideal t .f32 :=
  Host.sqrt (addf (Host.reduceAdd (mulf x x) (constant (F := Ideal) S0 .f32 0x00000000#32) h hS)
    (broadcastInDim t (![] : Fin 0 → Fin t.rank) hb (constant (F := Ideal) S0 .f32 0x219392EF#32)))

/-- On a real array every entry of such a norm is a positive real. -/
theorem normOver_pos {t : Shape} {axes : List (Fin SA.rank)} (h : SA.ReducesTo axes t) (hS : 0 < S0.numel)
    (hb : S0.BroadcastsInDim t (![] : Fin 0 → Fin t.rank)) (x : FVec Ideal SA .f32)
    (hx : ∀ i, ∃ r : ℝ, x i = (r : EReal)) (j : t.Idx) :
    ∃ r : ℝ, 0 < r ∧ normOver h hS hb x j = (r : EReal) :=
  sqrt_sumsq_pos h x hx j

end Cert.Contrast

end
-- ==== Proof.HostGlue.lean ====
/-
  The host operations around the two launches, read as values.

  Before launch 0 the host computes the per-anchor norms of x2 = back_VF and the per-column norms of x3 = back_AF
  (the host's norm expression, reshaped to [32,1,1] and [32,1,256]); launch 0 reads x2, x3 and those and writes its
  result array. Before launch 1 the host computes the same two norms with x2 and x3 exchanged; launch 1 reads x3,
  x2 and those. Neither a host operation nor a launch writes an argument array, so each launch finds the arguments
  as launched. After launch 1 the host reshapes both result arrays from [32,256,256] to [8192,256] (row 256·i + t)
  and adds them.

  So the program's result at row 256·i + t, column s is
      D(x2, x3) i t s · (−1) + D(x3, x2) i t s · (−1),
  the specification with each direction scaled before the two are added.
-/
import proofs.«113956_j5497558139284_1_alg».proof.Proof.Region0
import proofs.«113956_j5497558139284_1_alg».proof.Proof.Region1
import proofs.«113956_j5497558139284_1_alg».proof.Proof.Norms
import Idealize.ShloMosaic.Lib.StableHlo.Run

noncomputable section

open Idealize.ShloMosaic Idealize.ShloMosaic.TcCoe Idealize.SL.Sem Idealize.ShloMosaic.StableHlo
open Idealize.ShloMosaic.ValueIdx
open Idealize.ShloMosaic.Pipeline (Dat)

namespace Cert.KernelIdeal.HostGlue

open Cert.KernelIdeal Cert.KernelIdeal.Gen Cert.Contrast

variable (m : (ℓ : Loc nD τ sig) → Buf (Elt Ideal) ℓ) (ρ : Dev nD → PrngReg)

/-- The per-anchor norms of an array, as the host computes them. -/
abbrev frob (x : FVec Ideal S32x256x256 .f32) : FVec Ideal S32 .f32 :=
  normOver reducesTo_S32x256x256_S32_d1_2 h_S_ bcast_S_S32 x
/-- The per-anchor, per-column norms of an array, as the host computes them. -/
abbrev col (x : FVec Ideal S32x256x256 .f32) : FVec Ideal S32x256 .f32 :=
  normOver reducesTo_S32x256x256_S32x256_d1 h_S_ bcast_S_S32x256 x

/-! ## What launch 0 finds -/

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_v10 (c : Dev nD) : W1 m ρ c (Proc.devRef .tc main_v10)
    = shapeCast S32x1x1 (frob (m ((c : Thread nD τ).loc main_arg2))) shapeCasts_S32_S32x1x1 := by
  show StableHlo.after hostOps0 (W0 m ρ c) (Proc.devRef .tc main_v10) = _
  after_results
  rfl

theorem W1_v11 (c : Dev nD) : W1 m ρ c (Proc.devRef .tc main_v11)
    = shapeCast S32x1x256 (col (m ((c : Thread nD τ).loc main_arg3))) shapeCasts_S32x256_S32x1x256 := by
  show StableHlo.after hostOps0 (W0 m ρ c) (Proc.devRef .tc main_v11) = _
  after_results
  rfl

/-! ## What launch 1 finds -/

theorem W2_arg2 (c : Dev nD) : W2 m ρ c (Proc.devRef .tc main_arg2) = m ((c : Thread nD τ).loc main_arg2) :=
  ((W2_arr m ρ c 0).trans (((dat0 (V1 m ρ) c).arrAt_in 0 rfl _).trans (A_eq0 (V1 m ρ) c 0))).trans (W1_arg2 m ρ c)

theorem W2_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1))).trans (W1_arg3 m ρ c)

theorem W3_arg2 (c : Dev nD) : W3 m ρ c (Proc.devRef .tc main_arg2) = m ((c : Thread nD τ).loc main_arg2) := by
  show StableHlo.after hostOps1 (W2 m ρ c) (Proc.devRef .tc main_arg2) = _
  after_results
  exact W2_arg2 m ρ c

theorem W3_arg3 (c : Dev nD) : W3 m ρ c (Proc.devRef .tc main_arg3) = m ((c : Thread nD τ).loc main_arg3) := by
  show StableHlo.after hostOps1 (W2 m ρ c) (Proc.devRef .tc main_arg3) = _
  after_results
  exact W2_arg3 m ρ c

theorem W3_v23 (c : Dev nD) : W3 m ρ c (Proc.devRef .tc main_v23)
    = shapeCast S32x1x1 (frob (m ((c : Thread nD τ).loc main_arg3))) shapeCasts_S32_S32x1x1 := by
  show StableHlo.after hostOps1 (W2 m ρ c) (Proc.devRef .tc main_v23) = _
  after_results
  rw [W2_arg3 m ρ c]
  rfl

theorem W3_v24 (c : Dev nD) : W3 m ρ c (Proc.devRef .tc main_v24)
    = shapeCast S32x1x256 (col (m ((c : Thread nD τ).loc main_arg2))) shapeCasts_S32x256_S32x1x256 := by
  show StableHlo.after hostOps1 (W2 m ρ c) (Proc.devRef .tc main_v24) = _
  after_results
  rw [W2_arg2 m ρ c]
  rfl

/-! ## The two result arrays at the tail -/

theorem W4_v25 (c : Dev nD) : W4 m ρ c (Proc.devRef .tc main_v25) = (dat1 (V3 m ρ) c).arrAt 4 cfg1.N :=
  W4_arr m ρ c 4

theorem W3_v12 (c : Dev nD) : W3 m ρ c (Proc.devRef .tc main_v12) = W2 m ρ c (Proc.devRef .tc main_v12) := by
  show StableHlo.after hostOps1 (W2 m ρ c) (Proc.devRef .tc main_v12) = _
  after_results

theorem W4_v12 (c : Dev nD) : W4 m ρ c (Proc.devRef .tc main_v12) = (dat0 (V1 m ρ) c).arrAt 4 cfg0.N :=
  ((W4_of_ne m ρ c main_v12 (by decide)).trans (W3_v12 m ρ c)).trans (W2_arr m ρ c 4)

/-! ## The reshaped norms read at an index -/

/-- [32] viewed as [32,1,1]: entry (i, 0, 0) is entry i. -/
theorem cast_n (v : FVec Ideal S32 .f32) (i : Fin 32) :
    shapeCast S32x1x1 v shapeCasts_S32_S32x1x1 (ix3 i (0 : Fin 1) (0 : Fin 1)) = v (ix1 i) :=
  shapeCast_apply v shapeCasts_S32_S32x1x1 _ _ (by
    rw [Shape.rowMajor_val_three, Shape.rowMajor_val_one]
    show i.val = (i.val * 1 + 0) * 1 + 0
    omega)

/-- [32,256] viewed as [32,1,256]: entry (j, 0, s) is entry (j, s). -/
theorem cast_cn (v : FVec Ideal S32x256 .f32) (j : Fin 32) (s : Fin 256) :
    shapeCast S32x1x256 v shapeCasts_S32x256_S32x1x256 (ix3 j (0 : Fin 1) s) = v (ix2 j s) :=
  shapeCast_apply v shapeCasts_S32x256_S32x1x256 _ _ (by
    rw [Shape.rowMajor_val_three, Shape.rowMajor_val_two]
    show j.val * 256 + s.val = (j.val * 1 + 0) * 256 + s.val
    omega)

/-- [32,256,256] viewed as [8192,256]: row r is (r / 256, r % 256). -/
theorem cast_out (v : FVec Ideal S32x256x256 .f32) (r : Fin 8192) (s : Fin 256) :
    shapeCast S8192x256 v shapeCasts_S32x256x256_S8192x256 (ix2 r s) = v (ix3 (rowAnchor r) (rowPos r) s) :=
  shapeCast_apply v shapeCasts_S32x256x256_S8192x256 _ _ (by
    rw [Shape.rowMajor_val_three, Shape.rowMajor_val_two]
    show ((r.val / 256) * 256 + r.val % 256) * 256 + s.val = r.val * 256 + s.val
    have := Nat.div_add_mod r.val 256
    omega)

/-! ## The two launches' results, entry by entry -/

theorem out0_at (c : Dev nD) (i : Fin 32) (t s : Fin 256) :
    W4 m ρ c (Proc.devRef .tc main_v12) (ix3 i t s)
      = D (m ((c : Thread nD τ).loc main_arg2)) (m ((c : Thread nD τ).loc main_arg3))
          (frob (m ((c : Thread nD τ).loc main_arg2))) (col (m ((c : Thread nD τ).loc main_arg3))) i t s * negOne := by
  rw [W4_v12, Region0.final (V1 m ρ) c]
  show regionAt (V1 m ρ c main_arg2) (V1 m ρ c main_arg3) (V1 m ρ c main_v10) (V1 m ρ c main_v11) i t s = _
  rw [show V1 m ρ c main_arg2 = m ((c : Thread nD τ).loc main_arg2) from W1_arg2 m ρ c,
    show V1 m ρ c main_arg3 = m ((c : Thread nD τ).loc main_arg3) from W1_arg3 m ρ c,
    show V1 m ρ c main_v10 = _ from W1_v10 m ρ c, show V1 m ρ c main_v11 = _ from W1_v11 m ρ c]
  exact regionAt_eq_D _ _ _ _ _ _ (fun i => cast_n _ i) (fun j s => cast_cn _ j s) i t s

theorem out1_at (c : Dev nD) (i : Fin 32) (t s : Fin 256) :
    W4 m ρ c (Proc.devRef .tc main_v25) (ix3 i t s)
      = D (m ((c : Thread nD τ).loc main_arg3)) (m ((c : Thread nD τ).loc main_arg2))
          (frob (m ((c : Thread nD τ).loc main_arg3))) (col (m ((c : Thread nD τ).loc main_arg2))) i t s * negOne := by
  rw [W4_v25, Region1.final (V3 m ρ) c]
  show regionAt (V3 m ρ c main_arg3) (V3 m ρ c main_arg2) (V3 m ρ c main_v23) (V3 m ρ c main_v24) i t s = _
  rw [show V3 m ρ c main_arg3 = m ((c : Thread nD τ).loc main_arg3) from W3_arg3 m ρ c,
    show V3 m ρ c main_arg2 = m ((c : Thread nD τ).loc main_arg2) from W3_arg2 m ρ c,
    show V3 m ρ c main_v23 = _ from W3_v23 m ρ c, show V3 m ρ c main_v24 = _ from W3_v24 m ρ c]
  exact regionAt_eq_D _ _ _ _ _ _ (fun i => cast_n _ i) (fun j s => cast_cn _ j s) i t s

/-! ## The program's result -/

/-- After the tail the result buffer holds the specification with each direction scaled before the sum. -/
theorem result_eq (c : Dev nD) :
    W5 m ρ c (Proc.devRef .tc main_v28)
      = Gscaled (m ((c : Thread nD τ).loc main_arg2)) (m ((c : Thread nD τ).loc main_arg3))
          (frob (m ((c : Thread nD τ).loc main_arg2))) (frob (m ((c : Thread nD τ).loc main_arg3)))
          (col (m ((c : Thread nD τ).loc main_arg2))) (col (m ((c : Thread nD τ).loc main_arg3))) := by
  show StableHlo.after hostOps2 (W4 m ρ c) (Proc.devRef .tc main_v28) = _
  after_results
  funext q
  obtain ⟨r, s, rfl⟩ : ∃ (r : Fin 8192) (s : Fin 256), q = ix2 r s := ⟨q 0, q 1, eq_ix2 q⟩
  show (shapeCast S8192x256 (W4 m ρ c (Proc.devRef .tc main_v12) : FVec Ideal S32x256x256 .f32)
        shapeCasts_S32x256x256_S8192x256 (ix2 r s) : EReal)
      + (shapeCast S8192x256 (W4 m ρ c (Proc.devRef .tc main_v25) : FVec Ideal S32x256x256 .f32)
        shapeCasts_S32x256x256_S8192x256 (ix2 r s) : EReal) = _
  rw [cast_out, cast_out, out0_at, out1_at]
  rfl

end Cert.KernelIdeal.HostGlue

end
-- ==== Proof.KernelRun.lean ====
/-
  The whole program's run with its result buffer in the post: every weakly fair execution terminates, nothing
  faults, the result buffer ends at the contents the last host stretch leaves there, and the four argument arrays
  end as launched. The run is the chain of the program's five segments (host stretch, launch 0, host stretch,
  launch 1, host tail), each entered from the buffer contents the previous one leaves; the final state is read
  buffer by buffer against the contents after the tail.
-/
import proofs.«113956_j5497558139284_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the contents after the host tail. -/
theorem run_out : θ_run defs (onTc (τ := τ) (main (F := F))) ⟨m, fun _ => 0, ρ⟩ (fun r => ∀ c : Dev nD,
      r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Run

end
-- ==== Proof.PreReal.lean ====
/-
  From the precondition "every float input is finite" to "every entry of every input is a real number".

  The precondition is the conjunction of four statements `all (|x| < +∞)`, one per input array, each an
  and-reduction over all three axes of the array of comparison bits. Read at extended reals: the
  pattern 0x7F800000 denotes ⊤, the absolute value is `max x (-x)`, and `max x (-x) < ⊤` rules out
  both `x = ⊤` and `x = ⊥`; what is left of an extended real is a real.
-/
import proofs.«113956_j5497558139284_1_alg».proof.Pre_finite_inputs
import proofs.«113956_j5497558139284_1_alg».proof.Proof.Gen.Pre_finite_inputs
import Idealize.ShloMosaic.Lib.ReduceAll
import Idealize.ShloMosaic.Lib.ValueIdx
import Idealize.ShloMosaic.PureOps.Ideal

noncomputable section

namespace Cert.PreReal

open Idealize.ShloMosaic

/-- The rank-zero shape has exactly one index. -/
instance subsingleton_scalar_idx : Subsingleton Cert.Pre_finite_inputs.S_.Idx :=
  ⟨fun a b => funext fun d => d.elim0⟩

/-- The single-precision pattern 0x7F800000 (exponent all ones, significand zero, sign clear) denotes +∞. -/
theorem inf_eq_top : Ideal.ofBits .f32 0x7F800000#32 = (⊤ : EReal) := by
  simp [Ideal.ofBits, Ideal.ieee]

/-- One element: if `|x| < +∞` holds as a comparison bit then `x` is a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change Ideal.cmp .olt (max x (-x)) (Ideal.ofBits .f32 0x7F800000#32) = 1#1 at h
  rw [inf_eq_top] at h
  induction x using EReal.rec with
  | bot => simp [Ideal.cmp] at h
  | coe r => exact ⟨r, rfl⟩
  | top => simp [Ideal.cmp] at h

/-- One array: if the and-reduction of the bits `|x i| < +∞` over every axis is 1 then every `x i` is a real. -/
theorem real_of_all [Cert.Pre_finite_inputs.Facts]
    (x : FVec Ideal Cert.Pre_finite_inputs.S32x256x256 .f32)
    (init : IVec Cert.Pre_finite_inputs.S_ 1)
    (h : Host.reduce IntOp.andi
          (cmpf .olt (Host.absf x)
            (broadcastInDim Cert.Pre_finite_inputs.S32x256x256 ![] Cert.Pre_finite_inputs.Facts.bcast_S_S32x256x256
              (constant (F := Ideal) Cert.Pre_finite_inputs.S_ .f32 0x7F800000#32)))
          init Cert.Pre_finite_inputs.Facts.reducesTo_S32x256x256_S_d0_1_2 Cert.Pre_finite_inputs.Facts.h_S_
          ValueIdx.ix0 = 1#1)
    (i : Cert.Pre_finite_inputs.S32x256x256.Idx) : ∃ r : ℝ, x i = (r : EReal) :=
  real_of_abs_lt_inf (x i) (Host.reduce_andi_all _ _ _ _ _ h i)

theorem real_of_finite [Cert.Pre_finite_inputs.Facts]
    (x0 x1 x2 x3 : (⟨Cert.Pre_finite_inputs.S32x256x256, .f32⟩ : BufTy).Contents (Elt Ideal))
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all x0 _ h0', real_of_all x1 _ h1, real_of_all x2 _ h2, real_of_all x3 _ h3⟩

end Cert.PreReal

end
-- ==== Proof.KernelValue.lean ====
/-
  The kernel program's result under the precondition.

  Every execution ends with the result buffer at the specification with each direction scaled before the sum
  (the run and the host glue). Under the precondition every entry of the two arrays is real, so both norms are
  positive reals, every intermediate is real, and scaling before the sum is scaling the sum: the result is G.
-/
import proofs.«113956_j5497558139284_1_alg».proof.Defs
import proofs.«113956_j5497558139284_1_alg».proof.Proof.HostGlue
import proofs.«113956_j5497558139284_1_alg».proof.Proof.KernelRun
import proofs.«113956_j5497558139284_1_alg».proof.Proof.PreReal
import proofs.«113956_j5497558139284_1_alg».proof.Proof.Gen.Pre_finite_inputs

noncomputable section

open Idealize.ShloMosaic Idealize.ShloMosaic.TcCoe Idealize.SL.Sem

namespace Cert.KernelIdeal.Value

open Cert.KernelIdeal Cert.KernelIdeal.Gen Cert.Contrast Cert.KernelIdeal.HostGlue

/-- The specification at the kernel program's argument arrays, with the host's norms. -/
abbrev spec (x2 x3 : FVec Ideal S32x256x256 .f32) : FVec Ideal S8192x256 .f32 :=
  G x2 x3 (frob x2) (frob x3) (col x2) (col x3)

/-- On real arrays the scaled-first form is the specification. -/
theorem scaled_eq_spec (x2 x3 : FVec Ideal S32x256x256 .f32) (h2 : ∀ i, ∃ r : ℝ, x2 i = (r : EReal))
    (h3 : ∀ i, ∃ r : ℝ, x3 i = (r : EReal)) :
    Gscaled x2 x3 (frob x2) (frob x3) (col x2) (col x3) = spec x2 x3 :=
  Gscaled_eq_G x2 x3 _ _ _ _ h2 h3 (normOver_pos _ _ _ x2 h2) (normOver_pos _ _ _ x3 h3) (normOver_pos _ _ _ x2 h2)
    (normOver_pos _ _ _ x3 h3)

/-- The kernel program, run from a memory satisfying the precondition, ends with its result at the specification
    of its argument arrays, and the arguments unchanged. -/
theorem run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v28)
          = spec (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨-, -, h2, h3⟩ := Cert.PreReal.real_of_finite _ _ _ _ (hpre c)
    exact ⟨((h c).1.trans (result_eq m ρ c)).trans (scaled_eq_spec _ _ h2 h3), (h c).2⟩)
    (Cert.KernelIdeal.Run.run_out (F := Ideal) m ρ)

end Cert.KernelIdeal.Value

end
-- ==== Proof.RefNorms.lean ====
/-
  The four norms of the reference. Each direction divides by a norm per anchor of its row array (the square root of the
  sum of squares over an anchor's whole block, plus ε) times a norm per anchor and column of its column array (the
  square root of the sum of squares down a column, plus ε). The reference computes each by the host expression that
  the specification names normOver, so each stage equals it by unfolding the stage definitions down to the argument;
  the sums themselves are never opened.
-/
import proofs.«113956_j5497558139284_1_alg».proof.Proof.Gen.ReferenceIdeal.Read
import proofs.«113956_j5497558139284_1_alg».proof.Proof.Norms

noncomputable section

namespace Cert.ReferenceIdeal.RefNorms

open Cert.ReferenceIdeal Cert.ReferenceIdeal.Gen Cert.ReferenceIdeal.Read Idealize.ShloMosaic

/-- The norm per anchor of arg2, as the first direction computes it. -/
theorem frob_arg2 (x2 : (⟨S32x256x256, .f32⟩ : BufTy).Contents (Elt Ideal)) :
    val_main_v6 (F := Ideal) x2
      = Cert.Contrast.normOver reducesTo_S32x256x256_S32_d1_2 h_S_ bcast_S_S32 x2 := by
  unfold val_main_v6 val_main_v5 val_main_v3 val_main_v4 val_main_v2 val_main_cst val_main_cst_0 Cert.Contrast.normOver
  rfl

/-- The norm per anchor and column of arg3, as the first direction computes it. -/
theorem col_arg3 (x3 : (⟨S32x256x256, .f32⟩ : BufTy).Contents (Elt Ideal)) :
    val_main_v11 (F := Ideal) x3
      = Cert.Contrast.normOver reducesTo_S32x256x256_S32x256_d1 h_S_ bcast_S_S32x256 x3 := by
  unfold val_main_v11 val_main_v10 val_main_v8 val_main_v9 val_main_v7 val_main_cst_1 val_main_cst_2 Cert.Contrast.normOver
  rfl

/-- The norm per anchor of arg3, as the second direction computes it. -/
theorem frob_arg3 (x3 : (⟨S32x256x256, .f32⟩ : BufTy).Contents (Elt Ideal)) :
    val_main_v47 (F := Ideal) x3
      = Cert.Contrast.normOver reducesTo_S32x256x256_S32_d1_2 h_S_ bcast_S_S32 x3 := by
  unfold val_main_v47 val_main_v46 val_main_v44 val_main_v45 val_main_v43 val_main_cst_8 val_main_cst_9 Cert.Contrast.normOver
  rfl

/-- The norm per anchor and column of arg2, as the second direction computes it. -/
theorem col_arg2 (x2 : (⟨S32x256x256, .f32⟩ : BufTy).Contents (Elt Ideal)) :
    val_main_v52 (F := Ideal) x2
      = Cert.Contrast.normOver reducesTo_S32x256x256_S32x256_d1 h_S_ bcast_S_S32x256 x2 := by
  unfold val_main_v52 val_main_v51 val_main_v49 val_main_v50 val_main_v48 val_main_cst_10 val_main_cst_11 Cert.Contrast.normOver
  rfl

end Cert.ReferenceIdeal.RefNorms

end
-- ==== Proof.RefGather.lean ====
/-
  The own-anchor term. Each direction subtracts e[i, i, t, s] from the sum over the anchors; the program reads it with
  a gather whose start indices are two copies of the column 0, 1, …, 31 (each passed through "add 32 when negative",
  which never applies to these values). This module shows both copies at row i are the word of i, and that the gather
  at (i, t, s) therefore reads its operand at (i, i, t, s).
-/
import proofs.«113956_j5497558139284_1_alg».proof.Proof.Gen.ReferenceIdeal.Read

noncomputable section

namespace Cert.ReferenceIdeal.RefGather

open Cert.ReferenceIdeal Cert.ReferenceIdeal.Gen Cert.ReferenceIdeal.Read Idealize.ShloMosaic Idealize.ShloMosaic.ValueIdx

/-! ## The start indices -/

/-- For 0 ≤ i < 32 the word of i is not negative, so "add 32 when negative" leaves it. -/
theorem wrap_id : ∀ i : Fin 32,
    Scalar.select (IntOp.cmpi .slt (BitVec.ofNat 32 i.val) 0#32) (IntOp.addi (BitVec.ofNat 32 i.val) 32#32) (BitVec.ofNat 32 i.val)
      = BitVec.ofNat 32 i.val := by decide

/-- Read signed, the word of i < 32 is i. -/
theorem word_toNat : ∀ i : Fin 32, (BitVec.ofNat 32 i.val).toInt.toNat = i.val := by decide

section Starts
variable {F : FTy → Type} [FloatOps F]

/-- First direction: the first index column at row i is the word of i. -/
theorem col0 (i : Fin 32) : val_main_v26 (F := F) (ix1 i) = BitVec.ofNat 32 i.val := by
  rw [val_main_v26_apply, val_main_v23_apply, val_main_v25_apply, val_main_v20_apply, val_main_v22_apply, val_main_c_apply,
    val_main_v24_apply, val_main_c_4_apply]
  exact wrap_id i

/-- First direction: the second index column at row i is the word of i. -/
theorem col1 (i : Fin 32) : val_main_v31 (F := F) (ix1 i) = BitVec.ofNat 32 i.val := by
  rw [val_main_v31_apply, val_main_v28_apply, val_main_v30_apply, val_main_v20_apply, val_main_v27_apply, val_main_c_5_apply,
    val_main_v29_apply, val_main_c_6_apply]
  exact wrap_id i

/-- The joined start indices: the first entry of row i is the word of i. -/
theorem starts0 (i : Fin 32) : val_main_v34 (F := F) (ix2 i (0 : Fin 2)) = BitVec.ofNat 32 i.val := by
  unfold val_main_v34
  rw [concatenate_pair_apply_left (1 : Fin S32x2.rank) (val_main_v32 (F := F)) (val_main_v33 (F := F)) concatenates_S32x1_S32x1_S32x2_d1
    (ix2 i (0 : Fin 2)) rfl (ix2 i (0 : Fin 1)) (fun b => by match b with | ⟨0, _⟩ => rfl | ⟨1, _⟩ => rfl)]
  rw [val_main_v32_apply, show idx_main_v32 (ix2 i (0 : Fin 1)) = ix1 i from funext fun a => Fin.ext (by match a with | ⟨0, _⟩ => rfl)]
  exact col0 i

/-- The joined start indices: the second entry of row i is the word of i. -/
theorem starts1 (i : Fin 32) : val_main_v34 (F := F) (ix2 i (1 : Fin 2)) = BitVec.ofNat 32 i.val := by
  unfold val_main_v34
  rw [concatenate_pair_apply_right (1 : Fin S32x2.rank) (val_main_v32 (F := F)) (val_main_v33 (F := F)) concatenates_S32x1_S32x1_S32x2_d1
    (ix2 i (1 : Fin 2)) rfl rfl (ix2 i (0 : Fin 1)) (fun b hb => by match b, hb with | ⟨0, _⟩, _ => rfl | ⟨1, _⟩, hb => exact absurd rfl hb) rfl]
  rw [val_main_v33_apply, show idx_main_v33 (ix2 i (0 : Fin 1)) = ix1 i from funext fun a => Fin.ext (by match a with | ⟨0, _⟩ => rfl)]
  exact col1 i

/-- Second direction: the first index column at row i is the word of i. -/
theorem col0' (i : Fin 32) : val_main_v67 (F := F) (ix1 i) = BitVec.ofNat 32 i.val := by
  rw [val_main_v67_apply, val_main_v64_apply, val_main_v66_apply, val_main_v61_apply, val_main_v63_apply, val_main_c_13_apply,
    val_main_v65_apply, val_main_c_14_apply]
  exact wrap_id i

/-- Second direction: the second index column at row i is the word of i. -/
theorem col1' (i : Fin 32) : val_main_v72 (F := F) (ix1 i) = BitVec.ofNat 32 i.val := by
  rw [val_main_v72_apply, val_main_v69_apply, val_main_v71_apply, val_main_v61_apply, val_main_v68_apply, val_main_c_15_apply,
    val_main_v70_apply, val_main_c_16_apply]
  exact wrap_id i

/-- The joined start indices: the first entry of row i is the word of i. -/
theorem starts0' (i : Fin 32) : val_main_v75 (F := F) (ix2 i (0 : Fin 2)) = BitVec.ofNat 32 i.val := by
  unfold val_main_v75
  rw [concatenate_pair_apply_left (1 : Fin S32x2.rank) (val_main_v73 (F := F)) (val_main_v74 (F := F)) concatenates_S32x1_S32x1_S32x2_d1
    (ix2 i (0 : Fin 2)) rfl (ix2 i (0 : Fin 1)) (fun b => by match b with | ⟨0, _⟩ => rfl | ⟨1, _⟩ => rfl)]
  rw [val_main_v73_apply, show idx_main_v73 (ix2 i (0 : Fin 1)) = ix1 i from funext fun a => Fin.ext (by match a with | ⟨0, _⟩ => rfl)]
  exact col0' i

/-- The joined start indices: the second entry of row i is the word of i. -/
theorem starts1' (i : Fin 32) : val_main_v75 (F := F) (ix2 i (1 : Fin 2)) = BitVec.ofNat 32 i.val := by
  unfold val_main_v75
  rw [concatenate_pair_apply_right (1 : Fin S32x2.rank) (val_main_v73 (F := F)) (val_main_v74 (F := F)) concatenates_S32x1_S32x1_S32x2_d1
    (ix2 i (1 : Fin 2)) rfl rfl (ix2 i (0 : Fin 1)) (fun b hb => by match b, hb with | ⟨0, _⟩, _ => rfl | ⟨1, _⟩, hb => exact absurd rfl hb) rfl]
  rw [val_main_v74_apply, show idx_main_v74 (ix2 i (0 : Fin 1)) = ix1 i from funext fun a => Fin.ext (by match a with | ⟨0, _⟩ => rfl)]
  exact col1' i

end Starts

/-! ## The gather at an index -/

section Operand
variable {α : Type}

/-- The gather's dimension numbers: operand [32, 32, 256, 256], start indices [32, 2], result [32, 256, 256]; the two
    leading operand axes are indexed by the start vector and collapsed, the two trailing ones are copied whole. -/
abbrev gd : GatherDims S32x32x256x256 S32x2 S32x256x256 := gather_S32x32x256x256_S32x2_S32x256x256_12_01_n_n_01_1_11256256

/-- Where the start-vector component for operand axis 0 of result index (i, t, s) is read: row i, entry 0. -/
theorem siIdx_axis0 (i : Fin 32) (t s : Fin 256)
    (h : List.idxOf (0 : Fin S32x32x256x256.rank) gd.startIndexMap < gd.startIndexMap.length) :
    gd.siIdx (ix3 i t s) ⟨List.idxOf (0 : Fin S32x32x256x256.rank) gd.startIndexMap, h⟩ = ix2 i (0 : Fin 2) := by
  funext b; refine Fin.ext ?_
  match b with
  | ⟨0, _⟩ => rfl
  | ⟨1, _⟩ => rfl

/-- Where the start-vector component for operand axis 1 of result index (i, t, s) is read: row i, entry 1. -/
theorem siIdx_axis1 (i : Fin 32) (t s : Fin 256)
    (h : List.idxOf (1 : Fin S32x32x256x256.rank) gd.startIndexMap < gd.startIndexMap.length) :
    gd.siIdx (ix3 i t s) ⟨List.idxOf (1 : Fin S32x32x256x256.rank) gd.startIndexMap, h⟩ = ix2 i (1 : Fin 2) := by
  funext b; refine Fin.ext ?_
  match b with
  | ⟨0, _⟩ => rfl
  | ⟨1, _⟩ => rfl

variable (idx : IVec S32x2 32)
  (h0 : ∀ i : Fin 32, idx (ix2 i (0 : Fin 2)) = BitVec.ofNat 32 i.val)
  (h1 : ∀ i : Fin 32, idx (ix2 i (1 : Fin 2)) = BitVec.ofNat 32 i.val)
  (i : Fin 32) (t s : Fin 256)

include h0 in
/-- Operand axis 0: the start entry 0 of row i, clamped into [0, 31]: i. -/
theorem operand_axis0 : (gd.operandIdx (ix3 i t s) idx (0 : Fin S32x32x256x256.rank)).val = i.val := by
  show gd.start (ix3 i t s) idx 0 + gd.batchCoord (ix3 i t s) 0 + gd.offCoord (ix3 i t s) 0 = _
  rw [GatherDims.batchCoord_eq_zero _ _ _ List.not_mem_nil,
    GatherDims.offCoord_eq_zero _ _ _ (fun h => ((GatherDims.mem_sKept _ _).mp h).1 (by decide)), Nat.add_zero]
  unfold GatherDims.start
  rw [dif_pos (show (0 : Fin S32x32x256x256.rank) ∈ gd.startIndexMap by decide), siIdx_axis0 i t s, h0 i, word_toNat i]
  have := i.isLt
  show min i.val (32 - 1) = i.val
  omega

include h1 in
/-- Operand axis 1: the start entry 1 of row i, clamped into [0, 31]: i. -/
theorem operand_axis1 : (gd.operandIdx (ix3 i t s) idx (1 : Fin S32x32x256x256.rank)).val = i.val := by
  show gd.start (ix3 i t s) idx 1 + gd.batchCoord (ix3 i t s) 1 + gd.offCoord (ix3 i t s) 1 = _
  rw [GatherDims.batchCoord_eq_zero _ _ _ List.not_mem_nil,
    GatherDims.offCoord_eq_zero _ _ _ (fun h => ((GatherDims.mem_sKept _ _).mp h).1 (by decide)), Nat.add_zero]
  unfold GatherDims.start
  rw [dif_pos (show (1 : Fin S32x32x256x256.rank) ∈ gd.startIndexMap by decide), siIdx_axis1 i t s, h1 i, word_toNat i]
  have := i.isLt
  show min i.val (32 - 1) = i.val
  omega

/-- Operand axis 2 is copied whole: the result's coordinate t. -/
theorem operand_axis2 : (gd.operandIdx (ix3 i t s) idx (2 : Fin S32x32x256x256.rank)).val = t.val := by
  show gd.start (ix3 i t s) idx 2 + gd.batchCoord (ix3 i t s) 2 + gd.offCoord (ix3 i t s) 2 = _
  rw [GatherDims.batchCoord_eq_zero _ _ _ List.not_mem_nil, Nat.add_zero]
  unfold GatherDims.start
  rw [dif_neg (show ¬ (2 : Fin S32x32x256x256.rank) ∈ gd.startIndexMap by decide), Nat.zero_add]
  unfold GatherDims.offCoord
  rw [dif_pos (show (2 : Fin S32x32x256x256.rank) ∈ gd.sKept by decide)]
  rfl

/-- Operand axis 3 is copied whole: the result's coordinate s. -/
theorem operand_axis3 : (gd.operandIdx (ix3 i t s) idx (3 : Fin S32x32x256x256.rank)).val = s.val := by
  show gd.start (ix3 i t s) idx 3 + gd.batchCoord (ix3 i t s) 3 + gd.offCoord (ix3 i t s) 3 = _
  rw [GatherDims.batchCoord_eq_zero _ _ _ List.not_mem_nil, Nat.add_zero]
  unfold GatherDims.start
  rw [dif_neg (show ¬ (3 : Fin S32x32x256x256.rank) ∈ gd.startIndexMap by decide), Nat.zero_add]
  unfold GatherDims.offCoord
  rw [dif_pos (show (3 : Fin S32x32x256x256.rank) ∈ gd.sKept by decide)]
  rfl

include h0 h1 in
/-- THE GATHER AT (i, t, s): with both start entries of row i the word of i, it reads the operand at (i, i, t, s). -/
theorem gather_diag (x : S32x32x256x256.Idx → α) :
    Host.gather gd x idx (ix3 i t s) = x (ix4 i i t s) := by
  unfold Host.gather
  congr 1
  funext a
  refine Fin.ext ?_
  match a with
  | ⟨0, _⟩ => exact operand_axis0 idx h0 i t s
  | ⟨1, _⟩ => exact operand_axis1 idx h1 i t s
  | ⟨2, _⟩ => exact operand_axis2 idx i t s
  | ⟨3, _⟩ => exact operand_axis3 idx i t s

end Operand

end Cert.ReferenceIdeal.RefGather

end
-- ==== Proof.RefDirection.lean ====
/-
  One direction of the reference at an index. With rows V, columns A, a norm vn per anchor of V and a norm an per anchor
  and column of A, the reference forms e[i, j, t, s] = exp ((Σ_d V(i,t,d) · A(j,s,d)) / (vn(i) · an(j,s))) by a
  contraction over the feature axis (which it writes with the column array first: the product is commuted here), then
  log (1 + (Σ_j e[i, j, t, s] − e[i, i, t, s])). This module reads those stages at explicit coordinates and identifies
  them with the specification's E and D, once for (V, A) = (arg2, arg3) and once for (arg3, arg2). The norms stay the
  reference's own stages here; they are identified with the specification's in the module of the norms.
-/
import proofs.«113956_j5497558139284_1_alg».proof.Proof.Gen.ReferenceIdeal.Read
import proofs.«113956_j5497558139284_1_alg».proof.Proof.Spec
import proofs.«113956_j5497558139284_1_alg».proof.Proof.LibRealSums
import proofs.«113956_j5497558139284_1_alg».proof.Proof.RefGather

noncomputable section

namespace Cert.ReferenceIdeal.RefDirection

open Cert.ReferenceIdeal Cert.ReferenceIdeal.Gen Cert.ReferenceIdeal.Read Idealize.ShloMosaic Idealize.ShloMosaic.ValueIdx
open scoped BigOperators

/-! ## The direction with arg2's rows against arg3's columns -/

/-- exp of the normalised inner product: the stage at (i, j, t, s) is E. -/
theorem expStage23_eq (x2 x3 : (⟨S32x256x256, .f32⟩ : BufTy).Contents (Elt Ideal)) (i j : Fin 32) (t s : Fin 256) :
    val_main_v19 (F := Ideal) x2 x3 (ix4 i j t s)
      = Cert.Contrast.E x2 x3 (val_main_v6 (F := Ideal) x2) (val_main_v11 (F := Ideal) x3) i j t s := by
  have el : ∀ k : Fin 256, lidx_main_v0 (idx_main_v1 (ix4 i j t s)) k = ix3 j s k := fun k =>
    funext fun a => Fin.ext (by match a with | ⟨0, _⟩ => rfl | ⟨1, _⟩ => rfl | ⟨2, _⟩ => rfl)
  have er : ∀ k : Fin 256, ridx_main_v0 (idx_main_v1 (ix4 i j t s)) k = ix3 i t k := fun k =>
    funext fun a => Fin.ext (by match a with | ⟨0, _⟩ => rfl | ⟨1, _⟩ => rfl | ⟨2, _⟩ => rfl)
  have ev : idx_main_v12 (idx_main_v14 (idx_main_v17 (ix4 i j t s))) = ix1 i :=
    funext fun a => Fin.ext (by match a with | ⟨0, _⟩ => rfl)
  have ea : idx_main_v13 (idx_main_v15 (idx_main_v17 (ix4 i j t s))) = ix2 j s :=
    funext fun a => Fin.ext (by match a with | ⟨0, _⟩ => rfl | ⟨1, _⟩ => rfl)
  rw [val_main_v19_apply, val_main_v18_apply, val_main_v1_apply, val_main_v0_apply, val_main_v17_apply, val_main_v16_apply, val_main_v14_apply,
    val_main_v12_apply, val_main_v15_apply, val_main_v13_apply, ev, ea]
  unfold Cert.Contrast.E Cert.Contrast.dotRow
  rw [Ideal.hostUnary_exp_def, Ideal.hostDivf_def, Ideal.mulf_def]
  congr 2
  exact Finset.sum_congr rfl fun k _ => by rw [el k, er k, mul_comm]

/-- log (1 + (the sum over the anchors − the anchor's own term)): the stage at (i, t, s) is D. -/
theorem logStage23_eq (x2 x3 : (⟨S32x256x256, .f32⟩ : BufTy).Contents (Elt Ideal)) (i : Fin 32) (t s : Fin 256) :
    val_main_v39 (F := Ideal) x2 x3 (ix3 i t s)
      = Cert.Contrast.D x2 x3 (val_main_v6 (F := Ideal) x2) (val_main_v11 (F := Ideal) x3) i t s := by
  have ek : ∀ k : Fin 32, idx_main_v21 (ix3 i t s) k = ix4 i k t s := fun k =>
    funext fun a => Fin.ext (by match a with | ⟨0, _⟩ => rfl | ⟨1, _⟩ => rfl | ⟨2, _⟩ => rfl | ⟨3, _⟩ => rfl)
  have hg : val_main_v35 (F := Ideal) x2 x3 (ix3 i t s) = val_main_v19 (F := Ideal) x2 x3 (ix4 i i t s) := by
    unfold val_main_v35
    exact RefGather.gather_diag (val_main_v34 (F := Ideal)) RefGather.starts0 RefGather.starts1 i t s (val_main_v19 (F := Ideal) x2 x3)
  rw [val_main_v39_apply, val_main_v38_apply, val_main_v37_apply, val_main_cst_7_apply, val_main_v36_apply, val_main_v21_apply, val_main_cst_3_apply, hg,
    expStage23_eq]
  unfold Cert.Contrast.D
  rw [Ideal.hostUnary_log_def, Ideal.addf_def, Ideal.subf_def, Ideal.ofBits_def, Ideal.ofBits_def, Cert.Law.lit_zero,
    Cert.Law.lit_one, zero_add, EReal.coe_one]
  unfold Ideal.log1p
  have hs : (∑ k : Fin 32, val_main_v19 (F := Ideal) x2 x3 (idx_main_v21 (ix3 i t s) k))
      = ∑ j : Fin 32, Cert.Contrast.E x2 x3 (val_main_v6 (F := Ideal) x2) (val_main_v11 (F := Ideal) x3) i j t s :=
    Finset.sum_congr rfl fun k _ => by rw [ek k, expStage23_eq]
  rw [hs]

/-! ## The direction with arg3's rows against arg2's columns -/

/-- exp of the normalised inner product: the stage at (i, j, t, s) is E. -/
theorem expStage32_eq (x2 x3 : (⟨S32x256x256, .f32⟩ : BufTy).Contents (Elt Ideal)) (i j : Fin 32) (t s : Fin 256) :
    val_main_v60 (F := Ideal) x2 x3 (ix4 i j t s)
      = Cert.Contrast.E x3 x2 (val_main_v47 (F := Ideal) x3) (val_main_v52 (F := Ideal) x2) i j t s := by
  have el : ∀ k : Fin 256, lidx_main_v41 (idx_main_v42 (ix4 i j t s)) k = ix3 j s k := fun k =>
    funext fun a => Fin.ext (by match a with | ⟨0, _⟩ => rfl | ⟨1, _⟩ => rfl | ⟨2, _⟩ => rfl)
  have er : ∀ k : Fin 256, ridx_main_v41 (idx_main_v42 (ix4 i j t s)) k = ix3 i t k := fun k =>
    funext fun a => Fin.ext (by match a with | ⟨0, _⟩ => rfl | ⟨1, _⟩ => rfl | ⟨2, _⟩ => rfl)
  have ev : idx_main_v53 (idx_main_v55 (idx_main_v58 (ix4 i j t s))) = ix1 i :=
    funext fun a => Fin.ext (by match a with | ⟨0, _⟩ => rfl)
  have ea : idx_main_v54 (idx_main_v56 (idx_main_v58 (ix4 i j t s))) = ix2 j s :=
    funext fun a => Fin.ext (by match a with | ⟨0, _⟩ => rfl | ⟨1, _⟩ => rfl)
  rw [val_main_v60_apply, val_main_v59_apply, val_main_v42_apply, val_main_v41_apply, val_main_v58_apply, val_main_v57_apply, val_main_v55_apply,
    val_main_v53_apply, val_main_v56_apply, val_main_v54_apply, ev, ea]
  unfold Cert.Contrast.E Cert.Contrast.dotRow
  rw [Ideal.hostUnary_exp_def, Ideal.hostDivf_def, Ideal.mulf_def]
  congr 2
  exact Finset.sum_congr rfl fun k _ => by rw [el k, er k, mul_comm]

/-- log (1 + (the sum over the anchors − the anchor's own term)): the stage at (i, t, s) is D. -/
theorem logStage32_eq (x2 x3 : (⟨S32x256x256, .f32⟩ : BufTy).Contents (Elt Ideal)) (i : Fin 32) (t s : Fin 256) :
    val_main_v80 (F := Ideal) x2 x3 (ix3 i t s)
      = Cert.Contrast.D x3 x2 (val_main_v47 (F := Ideal) x3) (val_main_v52 (F := Ideal) x2) i t s := by
  have ek : ∀ k : Fin 32, idx_main_v62 (ix3 i t s) k = ix4 i k t s := fun k =>
    funext fun a => Fin.ext (by match a with | ⟨0, _⟩ => rfl | ⟨1, _⟩ => rfl | ⟨2, _⟩ => rfl | ⟨3, _⟩ => rfl)
  have hg : val_main_v76 (F := Ideal) x2 x3 (ix3 i t s) = val_main_v60 (F := Ideal) x2 x3 (ix4 i i t s) := by
    unfold val_main_v76
    exact RefGather.gather_diag (val_main_v75 (F := Ideal)) RefGather.starts0' RefGather.starts1' i t s (val_main_v60 (F := Ideal) x2 x3)
  rw [val_main_v80_apply, val_main_v79_apply, val_main_v78_apply, val_main_cst_17_apply, val_main_v77_apply, val_main_v62_apply, val_main_cst_12_apply, hg,
    expStage32_eq]
  unfold Cert.Contrast.D
  rw [Ideal.hostUnary_log_def, Ideal.addf_def, Ideal.subf_def, Ideal.ofBits_def, Ideal.ofBits_def, Cert.Law.lit_zero,
    Cert.Law.lit_one, zero_add, EReal.coe_one]
  unfold Ideal.log1p
  have hs : (∑ k : Fin 32, val_main_v60 (F := Ideal) x2 x3 (idx_main_v62 (ix3 i t s) k))
      = ∑ j : Fin 32, Cert.Contrast.E x3 x2 (val_main_v47 (F := Ideal) x3) (val_main_v52 (F := Ideal) x2) i j t s :=
    Finset.sum_congr rfl fun k _ => by rw [ek k, expStage32_eq]
  rw [hs]

end Cert.ReferenceIdeal.RefDirection

end
-- ==== Proof.RefValue.lean ====
/-
  The reference's result is the specification G. The two directions (each log (1 + …) of shape [32, 256, 256]) are laid
  out row-major as [8192, 256] — row r = 256·i + t holds anchor i = r / 256 and position t = r % 256 —, added, and
  multiplied from the left by the constant −1. With each direction identified at explicit coordinates and each norm
  identified with the specification's, that is G entry by entry.
-/
import proofs.«113956_j5497558139284_1_alg».proof.Proof.RefNorms
import proofs.«113956_j5497558139284_1_alg».proof.Proof.RefDirection

noncomputable section

namespace Cert.ReferenceIdeal.RefValue

open Cert.ReferenceIdeal Cert.ReferenceIdeal.Gen Cert.ReferenceIdeal.Read Idealize.ShloMosaic Idealize.ShloMosaic.ValueIdx

/-- Row-major [32, 256, 256] → [8192, 256], first direction: entry (r, s) is read at (r / 256, r % 256, s). -/
theorem unflatten23 (r : Fin 8192) (s : Fin 256) :
    idx_main_v40 (ix2 r s) = ix3 (Cert.Contrast.rowAnchor r) (Cert.Contrast.rowPos r) s := by
  have h0 : r.val < 8192 := r.isLt
  have h1 : s.val < 256 := s.isLt
  funext a; refine Fin.ext ?_
  match a with
  | ⟨0, _⟩ => show (r.val * 256 + s.val) / 65536 = r.val / 256; omega
  | ⟨1, _⟩ => show (r.val * 256 + s.val) / 256 % 256 = r.val % 256; omega
  | ⟨2, _⟩ => show (r.val * 256 + s.val) % 256 = s.val; omega

/-- The same for the second direction. -/
theorem unflatten32 (r : Fin 8192) (s : Fin 256) :
    idx_main_v81 (ix2 r s) = ix3 (Cert.Contrast.rowAnchor r) (Cert.Contrast.rowPos r) s := by
  have h0 : r.val < 8192 := r.isLt
  have h1 : s.val < 256 := s.isLt
  funext a; refine Fin.ext ?_
  match a with
  | ⟨0, _⟩ => show (r.val * 256 + s.val) / 65536 = r.val / 256; omega
  | ⟨1, _⟩ => show (r.val * 256 + s.val) / 256 % 256 = r.val % 256; omega
  | ⟨2, _⟩ => show (r.val * 256 + s.val) % 256 = s.val; omega

/-- The result over the reference's own norm stages. -/
theorem ref_eq_G_stages (x2 x3 : (⟨S32x256x256, .f32⟩ : BufTy).Contents (Elt Ideal)) :
    val_main_v84 (F := Ideal) x2 x3
      = Cert.Contrast.G x2 x3 (val_main_v6 (F := Ideal) x2) (val_main_v47 (F := Ideal) x3)
          (val_main_v52 (F := Ideal) x2) (val_main_v11 (F := Ideal) x3) := by
  funext q
  obtain ⟨r, s, rfl⟩ : ∃ (r : Fin 8192) (s : Fin 256), q = ix2 r s := ⟨q 0, q 1, eq_ix2 q⟩
  show _ = Cert.Contrast.negOne *
    (Cert.Contrast.D x2 x3 (val_main_v6 (F := Ideal) x2) (val_main_v11 (F := Ideal) x3)
        (Cert.Contrast.rowAnchor r) (Cert.Contrast.rowPos r) s
      + Cert.Contrast.D x3 x2 (val_main_v47 (F := Ideal) x3) (val_main_v52 (F := Ideal) x2)
        (Cert.Contrast.rowAnchor r) (Cert.Contrast.rowPos r) s)
  rw [val_main_v84_apply, val_main_v83_apply, val_main_cst_18_apply, val_main_v82_apply, val_main_v40_apply, val_main_v81_apply,
    unflatten23 r s, unflatten32 r s, RefDirection.logStage23_eq, RefDirection.logStage32_eq,
    Ideal.mulf_def, Ideal.addf_def, Ideal.ofBits_def]

open Cert.ReferenceIdeal in
theorem ref_eq_G (x2 x3 : (⟨S32x256x256, .f32⟩ : BufTy).Contents (Elt Ideal)) :
    Cert.ReferenceIdeal.Read.val_main_v84 (F := Ideal) x2 x3
      = Cert.Contrast.G x2 x3
          (Cert.Contrast.normOver reducesTo_S32x256x256_S32_d1_2 h_S_ bcast_S_S32 x2)
          (Cert.Contrast.normOver reducesTo_S32x256x256_S32_d1_2 h_S_ bcast_S_S32 x3)
          (Cert.Contrast.normOver reducesTo_S32x256x256_S32x256_d1 h_S_ bcast_S_S32x256 x2)
          (Cert.Contrast.normOver reducesTo_S32x256x256_S32x256_d1 h_S_ bcast_S_S32x256 x3) := by
  rw [ref_eq_G_stages, RefNorms.frob_arg2, RefNorms.frob_arg3, RefNorms.col_arg2, RefNorms.col_arg3]

end Cert.ReferenceIdeal.RefValue

end
-- ==== Proof.lean ====
/-
  A contrastive loss in two directions, computed by a tiled kernel and by a plain array program: both compute, for
  the arrays x2, x3 of shape [32, 256, 256] (an anchor axis, a row axis, a feature axis),

      at row 256·i + t, column s:   −( D(x2, x3) i t s + D(x3, x2) i t s ),
      D(V, A) i t s = log ( 1 + Σ_{j ≠ i} exp ( ⟨V(i,t,·), A(j,s,·)⟩ / (‖V_i‖_F · ‖A_j(·,s)‖) ) ),

  with both norms regularised by ε = 1e-18 under the square root.

  The kernel program launches one kernel per direction over a grid of the 32 anchors; at a grid point it keeps two
  scratch blocks, the running sum over j of the exponentials and the term j = i, filled by a 32-trip loop, and
  writes log1p(sum − own term)·(−1); the host adds the two launches' results. The array program forms the whole
  [32,32,256,256] tensor of exponentials, sums over j, subtracts the diagonal, takes log(1 + ·), adds the two
  directions and multiplies by −1.

  At the exact instance the two differ only in where the factor −1 is applied: x·(−1) + y·(−1) against
  (−1)·(x + y). On the extended reals that identity needs x and y real, which the precondition (finite inputs)
  gives: real entries make the inner products real, ε > 0 makes the norms positive reals, so every quotient,
  exponential, sum and logarithm is real.

  The three frames are the programs' runs; the kernel's idealization rewrote nothing.
-/
import proofs.«113956_j5497558139284_1_alg».proof.Defs
import proofs.«113956_j5497558139284_1_alg».proof.Proof.Gen.Kernel
import proofs.«113956_j5497558139284_1_alg».proof.Proof.Gen.Kernel.Skeleton
import proofs.«113956_j5497558139284_1_alg».proof.Proof.Gen.Kernel.Loops
import proofs.«113956_j5497558139284_1_alg».proof.Proof.Gen.Kernel.Launch
import proofs.«113956_j5497558139284_1_alg».proof.Proof.Gen.Kernel.Points
import proofs.«113956_j5497558139284_1_alg».proof.Proof.Gen.Kernel.Frame
import proofs.«113956_j5497558139284_1_alg».proof.Proof.Gen.KernelIdeal
import proofs.«113956_j5497558139284_1_alg».proof.Proof.Gen.KernelIdeal.Skeleton
import proofs.«113956_j5497558139284_1_alg».proof.Proof.Gen.KernelIdeal.Loops
import proofs.«113956_j5497558139284_1_alg».proof.Proof.Gen.KernelIdeal.Launch
import proofs.«113956_j5497558139284_1_alg».proof.Proof.Gen.KernelIdeal.Points
import proofs.«113956_j5497558139284_1_alg».proof.Proof.Gen.KernelIdeal.Frame
import proofs.«113956_j5497558139284_1_alg».proof.Proof.Gen.ReferenceIdeal
import proofs.«113956_j5497558139284_1_alg».proof.Proof.Gen.ReferenceIdeal.Read
import proofs.«113956_j5497558139284_1_alg».proof.Proof.Gen.Pre_finite_inputs
import proofs.«113956_j5497558139284_1_alg».proof.Proof.KernelValue
import proofs.«113956_j5497558139284_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The array program's run keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the exact instance. -/
theorem preserves : Cert.preserves_Kernel_KernelIdeal := trivial

/-- Both programs end at the specification of the (agreeing) argument arrays: the kernel program by its run, the
    host glue and the law under the precondition; the array program by its run read one operation at a time. -/
theorem algebraic : Cert.algebraic_KernelIdeal_ReferenceIdeal := by
  intro m ρ m' ρ' hpre hagree
  refine ⟨fun c => Cert.KernelIdeal.Value.spec (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Value.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq, Cert.ReferenceIdeal.RefValue.ref_eq_G, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
